-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S64x1 : Shape := ⟨2, ![64, 1]⟩
abbrev S1x64 : Shape := ⟨2, ![1, 64]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S64x1 : S_.BroadcastsInDim S64x1 (![] : Fin 0 → Fin S64x1.rank)
  reducesTo_S64x1_S_d0_1 : S64x1.ReducesTo [0, 1] S_
  bcast_S_S1x64 : S_.BroadcastsInDim S1x64 (![] : Fin 0 → Fin S1x64.rank)
  reducesTo_S1x64_S_d0_1 : S1x64.ReducesTo [0, 1] S_

variable [Facts]

def fn_part3 {F : FTy → Type} [FloatOps F] (main_arg11 : FVec F S1x64 .f32) (main_arg12 : FVec F S1x64 .f32) (main_v48 : IVec S_ 1) (main_v49 : FVec F S1x64 .f32) (main_v50 : FVec F S1x64 .f32) : IVec S_ 1 :=
  let main_v51 : IVec S1x64 1 := cmpf .olt main_v49 main_v50
  let main_c_19 : IVec S_ 1 := constantI S_ 1 1#1
  let main_v52 : IVec S_ 1 := (fun x v => Host.reduce IntOp.andi x v reducesTo_S1x64_S_d0_1 h_S_) main_v51 main_c_19
  let main_v53 : IVec S_ 1 := andi main_v48 main_v52
  let main_v54 : FVec F S1x64 .f32 := Host.absf main_arg11
  let main_cst_20 : FVec F S_ .f32 := constant S_ .f32 0x7F800000#32
  let main_v55 : FVec F S1x64 .f32 := broadcastInDim S1x64 ![] bcast_S_S1x64 main_cst_20
  let main_v56 : IVec S1x64 1 := cmpf .olt main_v54 main_v55
  let main_c_21 : IVec S_ 1 := constantI S_ 1 1#1
  let main_v57 : IVec S_ 1 := (fun x v => Host.reduce IntOp.andi x v reducesTo_S1x64_S_d0_1 h_S_) main_v56 main_c_21
  let main_v58 : IVec S_ 1 := andi main_v53 main_v57
  let main_v59 : FVec F S1x64 .f32 := Host.absf main_arg12
  let main_cst_22 : FVec F S_ .f32 := constant S_ .f32 0x7F800000#32
  let main_v60 : FVec F S1x64 .f32 := broadcastInDim S1x64 ![] bcast_S_S1x64 main_cst_22
  let main_v61 : IVec S1x64 1 := cmpf .olt main_v59 main_v60
  let main_c_23 : IVec S_ 1 := constantI S_ 1 1#1
  let main_v62 : IVec S_ 1 := (fun x v => Host.reduce IntOp.andi x v reducesTo_S1x64_S_d0_1 h_S_) main_v61 main_c_23
  let main_v63 : IVec S_ 1 := andi main_v58 main_v62
  main_v63

def fn_part2 {F : FTy → Type} [FloatOps F] (main_arg7 : FVec F S64x1 .f32) (main_arg8 : FVec F S64x1 .f32) (main_arg9 : FVec F S64x1 .f32) (main_arg10 : FVec F S1x64 .f32) (main_arg11 : FVec F S1x64 .f32) (main_arg12 : FVec F S1x64 .f32) (main_v33 : IVec S_ 1) : IVec S_ 1 :=
  let main_v34 : FVec F S64x1 .f32 := Host.absf main_arg7
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S64x1 .f32 := Host.absf main_arg9
  let main_cst_16 : FVec F S_ .f32 := constant S_ .f32 0x7F800000#32
  let main_v45 : FVec F S64x1 .f32 := broadcastInDim S64x1 ![] bcast_S_S64x1 main_cst_16
  let main_v46 : IVec S64x1 1 := cmpf .olt main_v44 main_v45
  let main_c_17 : IVec S_ 1 := constantI S_ 1 1#1
  let main_v47 : IVec S_ 1 := (fun x v => Host.reduce IntOp.andi x v reducesTo_S64x1_S_d0_1 h_S_) main_v46 main_c_17
  let main_v48 : IVec S_ 1 := andi main_v43 main_v47
  let main_v49 : FVec F S1x64 .f32 := Host.absf main_arg10
  let main_cst_18 : FVec F S_ .f32 := constant S_ .f32 0x7F800000#32
  let main_v50 : FVec F S1x64 .f32 := broadcastInDim S1x64 ![] bcast_S_S1x64 main_cst_18
  fn_part3 (F := F) main_arg11 main_arg12 main_v48 main_v49 main_v50

def fn_part1 {F : FTy → Type} [FloatOps F] (main_arg4 : FVec F S1x64 .f32) (main_arg5 : FVec F S1x64 .f32) (main_arg6 : FVec F S1x64 .f32) (main_arg7 : FVec F S64x1 .f32) (main_arg8 : FVec F S64x1 .f32) (main_arg9 : FVec F S64x1 .f32) (main_arg10 : FVec F S1x64 .f32) (main_arg11 : FVec F S1x64 .f32) (main_arg12 : FVec F S1x64 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1x64 .f32 := Host.absf main_arg4
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1x64 .f32 := Host.absf main_arg5
  let main_cst_8 : FVec F S_ .f32 := constant S_ .f32 0x7F800000#32
  let main_v25 : FVec F S1x64 .f32 := broadcastInDim S1x64 ![] bcast_S_S1x64 main_cst_8
  let main_v26 : IVec S1x64 1 := cmpf .olt main_v24 main_v25
  let main_c_9 : IVec S_ 1 := constantI S_ 1 1#1
  let main_v27 : IVec S_ 1 := (fun x v => Host.reduce IntOp.andi x v reducesTo_S1x64_S_d0_1 h_S_) main_v26 main_c_9
  let main_v28 : IVec S_ 1 := andi main_v23 main_v27
  let main_v29 : FVec F S1x64 .f32 := Host.absf main_arg6
  let main_cst_10 : FVec F S_ .f32 := constant S_ .f32 0x7F800000#32
  let main_v30 : FVec F S1x64 .f32 := broadcastInDim S1x64 ![] bcast_S_S1x64 main_cst_10
  let main_v31 : IVec S1x64 1 := cmpf .olt main_v29 main_v30
  let main_c_11 : IVec S_ 1 := constantI S_ 1 1#1
  let main_v32 : IVec S_ 1 := (fun x v => Host.reduce IntOp.andi x v reducesTo_S1x64_S_d0_1 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x256x64x64 .f32) (main_arg1 : FVec F S64x1 .f32) (main_arg2 : FVec F S64x1 .f32) (main_arg3 : FVec F S64x1 .f32) (main_arg4 : FVec F S1x64 .f32) (main_arg5 : FVec F S1x64 .f32) (main_arg6 : FVec F S1x64 .f32) (main_arg7 : FVec F S64x1 .f32) (main_arg8 : FVec F S64x1 .f32) (main_arg9 : FVec F S64x1 .f32) (main_arg10 : FVec F S1x64 .f32) (main_arg11 : FVec F S1x64 .f32) (main_arg12 : FVec F S1x64 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S64x1 .f32 := Host.absf main_arg1
  let main_cst_0 : FVec F S_ .f32 := constant S_ .f32 0x7F800000#32
  let main_v5 : FVec F S64x1 .f32 := broadcastInDim S64x1 ![] bcast_S_S64x1 main_cst_0
  let main_v6 : IVec S64x1 1 := cmpf .olt main_v4 main_v5
  let main_c_1 : IVec S_ 1 := constantI S_ 1 1#1
  let main_v7 : IVec S_ 1 := (fun x v => Host.reduce IntOp.andi x v reducesTo_S64x1_S_d0_1 h_S_) main_v6 main_c_1
  let main_v8 : IVec S_ 1 := andi main_v3 main_v7
  let main_v9 : FVec F S64x1 .f32 := Host.absf main_arg2
  let main_cst_2 : FVec F S_ .f32 := constant S_ .f32 0x7F800000#32
  let main_v10 : FVec F S64x1 .f32 := broadcastInDim S64x1 ![] bcast_S_S64x1 main_cst_2
  let main_v11 : IVec S64x1 1 := cmpf .olt main_v9 main_v10
  let main_c_3 : IVec S_ 1 := constantI S_ 1 1#1
  let main_v12 : IVec S_ 1 := (fun x v => Host.reduce IntOp.andi x v reducesTo_S64x1_S_d0_1 h_S_) main_v11 main_c_3
  let main_v13 : IVec S_ 1 := andi main_v8 main_v12
  let main_v14 : FVec F S64x1 .f32 := Host.absf main_arg3
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg4 main_arg5 main_arg6 main_arg7 main_arg8 main_arg9 main_arg10 main_arg11 main_arg12 main_v13 main_v16
-- ==== Kernel.lean ====
abbrev S32x256x64x64 : Shape := ⟨4, ![32, 256, 64, 64]⟩
abbrev S64x1 : Shape := ⟨2, ![64, 1]⟩
abbrev S1x64 : Shape := ⟨2, ![1, 64]⟩
abbrev S32x256x4096 : Shape := ⟨3, ![32, 256, 4096]⟩
abbrev S1x256x4096 : Shape := ⟨3, ![1, 256, 4096]⟩
abbrev S1x4096 : Shape := ⟨2, ![1, 4096]⟩
abbrev S1x64x4096 : Shape := ⟨3, ![1, 64, 4096]⟩
abbrev S64x4096 : Shape := ⟨2, ![64, 4096]⟩
abbrev S4096 : Shape := ⟨1, ![4096]⟩
abbrev S64x64 : Shape := ⟨2, ![64, 64]⟩
abbrev S64 : Shape := ⟨1, ![64]⟩
abbrev S1 : Shape := ⟨1, ![1]⟩
abbrev S1x1 : Shape := ⟨2, ![1, 1]⟩

abbrev nBuf : Space → Nat
  | .hbm => 16
  | .vmem => 16
  | .smem => 0
  | _ => 0

abbrev bufTy : (tb : Table) → Fin (tcTables nBuf tb) → BufTy
  | .hbm, ⟨0, _⟩ => ⟨S32x256x64x64, .f32⟩
  | .hbm, ⟨1, _⟩ => ⟨S64x1, .f32⟩
  | .hbm, ⟨2, _⟩ => ⟨S64x1, .f32⟩
  | .hbm, ⟨3, _⟩ => ⟨S64x1, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S64x1, .f32⟩
  | .hbm, ⟨8, _⟩ => ⟨S64x1, .f32⟩
  | .hbm, ⟨9, _⟩ => ⟨S64x1, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S32x256x4096, .f32⟩
  | .hbm, ⟨14, _⟩ => ⟨S32x256x4096, .f32⟩
  | .hbm, ⟨15, _⟩ => ⟨S32x256x64x64, .f32⟩
  | .local _ .vmem, ⟨0, _⟩ => ⟨S1x256x4096, .f32⟩
  | .local _ .vmem, ⟨1, _⟩ => ⟨S1x256x4096, .f32⟩
  | .local _ .vmem, ⟨2, _⟩ => ⟨S64x1, .f32⟩
  | .local _ .vmem, ⟨3, _⟩ => ⟨S64x1, .f32⟩
  | .local _ .vmem, ⟨4, _⟩ => ⟨S64x1, .f32⟩
  | .local _ .vmem, ⟨5, _⟩ => ⟨S1x64, .f32⟩
  | .local _ .vmem, ⟨6, _⟩ => ⟨S1x64, .f32⟩
  | .local _ .vmem, ⟨7, _⟩ => ⟨S1x64, .f32⟩
  | .local _ .vmem, ⟨8, _⟩ => ⟨S64x1, .f32⟩
  | .local _ .vmem, ⟨9, _⟩ => ⟨S64x1, .f32⟩
  | .local _ .vmem, ⟨10, _⟩ => ⟨S64x1, .f32⟩
  | .local _ .vmem, ⟨11, _⟩ => ⟨S1x64, .f32⟩
  | .local _ .vmem, ⟨12, _⟩ => ⟨S1x64, .f32⟩
  | .local _ .vmem, ⟨13, _⟩ => ⟨S1x64, .f32⟩
  | .local _ .vmem, ⟨14, _⟩ => ⟨S1x256x4096, .f32⟩
  | .local _ .vmem, ⟨15, _⟩ => ⟨S1x256x4096, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg13_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem13_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x256x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  shapeCasts_S32x256x64x64_S32x256x4096 : S32x256x64x64.ShapeCasts S32x256x4096
  inb_S1x256x4096_S1x64x4096_0_0_0 : ∀ a, (![0, 0, 0] : Fin 3 → Nat) a + S1x64x4096.size a ≤ S1x256x4096.size a
  h_S1x64x4096 : 0 < S1x64x4096.numel
  shapeCasts_S1x64x4096_S64x4096 : S1x64x4096.ShapeCasts S64x4096
  reduces_S64x4096_S4096 : S64x4096.Reduces [0] S4096
  shapeCasts_S4096_S1x4096 : S4096.ShapeCasts S1x4096
  inb_S1x256x4096_S1x64x4096_0_64_0 : ∀ a, (![0, 64, 0] : Fin 3 → Nat) a + S1x64x4096.size a ≤ S1x256x4096.size a
  inb_S1x256x4096_S1x64x4096_0_128_0 : ∀ a, (![0, 128, 0] : Fin 3 → Nat) a + S1x64x4096.size a ≤ S1x256x4096.size a
  inb_S1x256x4096_S1x64x4096_0_192_0 : ∀ a, (![0, 192, 0] : Fin 3 → Nat) a + S1x64x4096.size a ≤ S1x256x4096.size a
  shapeCasts_S1x4096_S64x64 : S1x4096.ShapeCasts S64x64
  reduces_S64x64_S64 : S64x64.Reduces [0] S64
  shapeCasts_S64_S1x64 : S64.ShapeCasts S1x64
  reduces_S64x64_S64_2 : S64x64.Reduces [1] S64
  shapeCasts_S64_S64x1 : S64.ShapeCasts S64x1
  transposes_S64x1_p1_0_S1x64 : S64x1.Transposes [1, 0] S1x64
  inb_S64x1_S64x1_0_0 : ∀ a, (![0, 0] : Fin 2 → Nat) a + S64x1.size a ≤ S64x1.size a
  h_S64x1 : 0 < S64x1.numel
  shapeCasts_S64x1_S1x64 : S64x1.ShapeCasts S1x64
  inb_S1x64_S1x64_0_0 : ∀ a, (![0, 0] : Fin 2 → Nat) a + S1x64.size a ≤ S1x64.size a
  h_S1x64 : 0 < S1x64.numel
  reduces_S1x64_S1 : S1x64.Reduces [1] S1
  shapeCasts_S1_S1x1 : S1.ShapeCasts S1x1
  broadcasts_S1x1_S1x64 : S1x1.Broadcasts S1x64
  transposes_S1x64_p1_0_S64x1 : S1x64.Transposes [1, 0] S64x1
  broadcasts_S64x1_S64x64 : S64x1.Broadcasts S64x64
  broadcasts_S1x64_S64x64 : S1x64.Broadcasts S64x64
  shapeCasts_S64x64_S1x4096 : S64x64.ShapeCasts S1x4096
  broadcasts_S1x4096_S64x4096 : S1x4096.Broadcasts S64x4096
  shapeCasts_S64x4096_S1x64x4096 : S64x4096.ShapeCasts S1x64x4096
  shapeCasts_S32x256x4096_S32x256x64x64 : S32x256x4096.ShapeCasts S32x256x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S32x256x4096.size a
  hwx0_0 : ∀ i : grid0.Coords, EltTy.bits .f32 = 32 ∨ (Rect.block (s := S32x256x4096) S1x256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x1.size a ≤ S64x1.size a
  hwx0_1 : ∀ i : grid0.Coords, EltTy.bits .f32 = 32 ∨ (Rect.block (s := S64x1) S64x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S64x1.size a
  hwx0_2 : ∀ i : grid0.Coords, EltTy.bits .f32 = 32 ∨ (Rect.block (s := S64x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x1.size a ≤ S64x1.size a
  hwx0_3 : ∀ i : grid0.Coords, EltTy.bits .f32 = 32 ∨ (Rect.block (s := S64x1) S64x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x1.size a ≤ S64x1.size a
  hwx0_7 : ∀ i : grid0.Coords, EltTy.bits .f32 = 32 ∨ (Rect.block (s := S64x1) S64x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64x1.size a ≤ S64x1.size a
  hwx0_8 : ∀ i : grid0.Coords, EltTy.bits .f32 = 32 ∨ (Rect.block (s := S64x1) S64x1.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x1.size a ≤ S64x1.size a
  hwx0_9 : ∀ i : grid0.Coords, EltTy.bits .f32 = 32 ∨ (Rect.block (s := S64x1) S64x1.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x64.size a ≤ S1x64.size a
  hwx0_10 : ∀ i : grid0.Coords, EltTy.bits .f32 = 32 ∨ (Rect.block (s := S1x64) S1x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x64.size a ≤ S1x64.size a
  hwx0_11 : ∀ i : grid0.Coords, EltTy.bits .f32 = 32 ∨ (Rect.block (s := S1x64) S1x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x64.size a ≤ S1x64.size a
  hwx0_12 : ∀ i : grid0.Coords, EltTy.bits .f32 = 32 ∨ (Rect.block (s := S1x64) S1x64.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256x4096.size a ≤ S32x256x4096.size a
  hwx0_13 : ∀ i : grid0.Coords, EltTy.bits .f32 = 32 ∨ (Rect.block (s := S32x256x4096) S1x256x4096.size (cc0_transform_13 i) (hinb0_13 i)).WholeWords (EltTy.packing .f32)

variable [Facts₀]

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S64x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S64x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S1x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S1x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v1) S1x256x4096.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S32x256x64x64 : Shape := ⟨4, ![32, 256, 64, 64]⟩
abbrev S64x1 : Shape := ⟨2, ![64, 1]⟩
abbrev S1x64 : Shape := ⟨2, ![1, 64]⟩
abbrev S_ : Shape := ⟨0, ![]⟩
abbrev S32x64x64 : Shape := ⟨3, ![32, 64, 64]⟩
abbrev S32x64 : Shape := ⟨2, ![32, 64]⟩
abbrev S32 : Shape := ⟨1, ![32]⟩
abbrev S32x1 : Shape := ⟨2, ![32, 1]⟩
abbrev S32x64x1 : Shape := ⟨3, ![32, 64, 1]⟩
abbrev S32x1x64 : Shape := ⟨3, ![32, 1, 64]⟩
abbrev S32x1x64x64 : Shape := ⟨4, ![32, 1, 64, 64]⟩

abbrev nBuf : Space → Nat
  | .hbm => 108
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S64x1, .f32⟩
  | .hbm, ⟨2, _⟩ => ⟨S64x1, .f32⟩
  | .hbm, ⟨3, _⟩ => ⟨S64x1, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S64x1, .f32⟩
  | .hbm, ⟨8, _⟩ => ⟨S64x1, .f32⟩
  | .hbm, ⟨9, _⟩ => ⟨S64x1, .f32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S_, .f32⟩
  | .hbm, ⟨14, _⟩ => ⟨S32x64x64, .f32⟩
  | .hbm, ⟨15, _⟩ => ⟨S_, .f32⟩
  | .hbm, ⟨16, _⟩ => ⟨S32x64x64, .f32⟩
  | .hbm, ⟨17, _⟩ => ⟨S_, .f32⟩
  | .hbm, ⟨18, _⟩ => ⟨S32x64x64, .f32⟩
  | .hbm, ⟨19, _⟩ => ⟨S32x64x64, .f32⟩
  | .hbm, ⟨20, _⟩ => ⟨S_, .f32⟩
  | .hbm, ⟨21, _⟩ => ⟨S32x64, .f32⟩
  | .hbm, ⟨22, _⟩ => ⟨S_, .f32⟩
  | .hbm, ⟨23, _⟩ => ⟨S32x64, .f32⟩
  | .hbm, ⟨24, _⟩ => ⟨S_, .f32⟩
  | .hbm, ⟨25, _⟩ => ⟨S32x64, .f32⟩
  | .hbm, ⟨26, _⟩ => ⟨S32x64, .f32⟩
  | .hbm, ⟨27, _⟩ => ⟨S_, .f32⟩
  | .hbm, ⟨28, _⟩ => ⟨S32x64, .f32⟩
  | .hbm, ⟨29, _⟩ => ⟨S_, .f32⟩
  | .hbm, ⟨30, _⟩ => ⟨S32x64, .f32⟩
  | .hbm, ⟨31, _⟩ => ⟨S_, .f32⟩
  | .hbm, ⟨32, _⟩ => ⟨S32x64, .f32⟩
  | .hbm, ⟨33, _⟩ => ⟨S32x64, .f32⟩
  | .hbm, ⟨34, _⟩ => ⟨S_, .f32⟩
  | .hbm, ⟨35, _⟩ => ⟨S32, .f32⟩
  | .hbm, ⟨36, _⟩ => ⟨S_, .f32⟩
  | .hbm, ⟨37, _⟩ => ⟨S32, .f32⟩
  | .hbm, ⟨38, _⟩ => ⟨S32, .f32⟩
  | .hbm, ⟨39, _⟩ => ⟨S32x1, .f32⟩
  | .hbm, ⟨40, _⟩ => ⟨S32x64, .f32⟩
  | .hbm, ⟨41, _⟩ => ⟨S32x64, .f32⟩
  | .hbm, ⟨42, _⟩ => ⟨S32x64, .f32⟩
  | .hbm, ⟨43, _⟩ => ⟨S_, .f32⟩
  | .hbm, ⟨44, _⟩ => ⟨S32, .f32⟩
  | .hbm, ⟨45, _⟩ => ⟨S32x1, .f32⟩
  | .hbm, ⟨46, _⟩ => ⟨S32x64, .f32⟩
  | .hbm, ⟨47, _⟩ => ⟨S32x64, .f32⟩
  | .hbm, ⟨48, _⟩ => ⟨S32x1, .f32⟩
  | .hbm, ⟨49, _⟩ => ⟨S32x1, .f32⟩
  | .hbm, ⟨50, _⟩ => ⟨S32x64, .f32⟩
  | .hbm, ⟨51, _⟩ => ⟨S32x64, .f32⟩
  | .hbm, ⟨52, _⟩ => ⟨S32x64, .f32⟩
  | .hbm, ⟨53, _⟩ => ⟨S32x64, .f32⟩
  | .hbm, ⟨54, _⟩ => ⟨S32x64, .f32⟩
  | .hbm, ⟨55, _⟩ => ⟨S32x64, .f32⟩
  | .hbm, ⟨56, _⟩ => ⟨S32x64, .f32⟩
  | .hbm, ⟨57, _⟩ => ⟨S32x64, .f32⟩
  | .hbm, ⟨58, _⟩ => ⟨S32x64, .f32⟩
  | .hbm, ⟨59, _⟩ => ⟨S32x64, .f32⟩
  | .hbm, ⟨60, _⟩ => ⟨S32x1, .f32⟩
  | .hbm, ⟨61, _⟩ => ⟨S32x64, .f32⟩
  | .hbm, ⟨62, _⟩ => ⟨S32x64, .f32⟩
  | .hbm, ⟨63, _⟩ => ⟨S32x64, .f32⟩
  | .hbm, ⟨64, _⟩ => ⟨S32x64, .f32⟩
  | .hbm, ⟨65, _⟩ => ⟨S_, .f32⟩
  | .hbm, ⟨66, _⟩ => ⟨S32, .f32⟩
  | .hbm, ⟨67, _⟩ => ⟨S_, .f32⟩
  | .hbm, ⟨68, _⟩ => ⟨S32, .f32⟩
  | .hbm, ⟨69, _⟩ => ⟨S32, .f32⟩
  | .hbm, ⟨70, _⟩ => ⟨S32x1, .f32⟩
  | .hbm, ⟨71, _⟩ => ⟨S32x64, .f32⟩
  | .hbm, ⟨72, _⟩ => ⟨S32x64, .f32⟩
  | .hbm, ⟨73, _⟩ => ⟨S32x64, .f32⟩
  | .hbm, ⟨74, _⟩ => ⟨S_, .f32⟩
  | .hbm, ⟨75, _⟩ => ⟨S32, .f32⟩
  | .hbm, ⟨76, _⟩ => ⟨S32x1, .f32⟩
  | .hbm, ⟨77, _⟩ => ⟨S32x64, .f32⟩
  | .hbm, ⟨78, _⟩ => ⟨S32x64, .f32⟩
  | .hbm, ⟨79, _⟩ => ⟨S32x1, .f32⟩
  | .hbm, ⟨80, _⟩ => ⟨S32x1, .f32⟩
  | .hbm, ⟨81, _⟩ => ⟨S32x64, .f32⟩
  | .hbm, ⟨82, _⟩ => ⟨S32x64, .f32⟩
  | .hbm, ⟨83, _⟩ => ⟨S32x64, .f32⟩
  | .hbm, ⟨84, _⟩ => ⟨S32x64, .f32⟩
  | .hbm, ⟨85, _⟩ => ⟨S32x64, .f32⟩
  | .hbm, ⟨86, _⟩ => ⟨S32x64, .f32⟩
  | .hbm, ⟨87, _⟩ => ⟨S32x64, .f32⟩
  | .hbm, ⟨88, _⟩ => ⟨S32x64, .f32⟩
  | .hbm, ⟨89, _⟩ => ⟨S32x64, .f32⟩
  | .hbm, ⟨90, _⟩ => ⟨S32x64, .f32⟩
  | .hbm, ⟨91, _⟩ => ⟨S32x1, .f32⟩
  | .hbm, ⟨92, _⟩ => ⟨S32x64, .f32⟩
  | .hbm, ⟨93, _⟩ => ⟨S32x64, .f32⟩
  | .hbm, ⟨94, _⟩ => ⟨S32x64, .f32⟩
  | .hbm, ⟨95, _⟩ => ⟨S32x64, .f32⟩
  | .hbm, ⟨96, _⟩ => ⟨S32x64x1, .f32⟩
  | .hbm, ⟨97, _⟩ => ⟨S32x1x64, .f32⟩
  | .hbm, ⟨98, _⟩ => ⟨S32x64x64, .f32⟩
  | .hbm, ⟨99, _⟩ => ⟨S32x64x64, .f32⟩
  | .hbm, ⟨100, _⟩ => ⟨S32x64x64, .f32⟩
  | .hbm, ⟨101, _⟩ => ⟨S32x64x64, .f32⟩
  | .hbm, ⟨102, _⟩ => ⟨S32x1x64x64, .f32⟩
  | .hbm, ⟨103, _⟩ => ⟨S_, .f32⟩
  | .hbm, ⟨104, _⟩ => ⟨S32x1x64x64, .f32⟩
  | .hbm, ⟨105, _⟩ => ⟨S32x1x64x64, .f32⟩
  | .hbm, ⟨106, _⟩ => ⟨S32x256x64x64, .f32⟩
  | .hbm, ⟨107, _⟩ => ⟨S32x256x64x64, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_cst_0 : Ref sig .tc := ⟨.hbm, 15, rfl⟩
abbrev main_v1 : Ref sig .tc := ⟨.hbm, 16, rfl⟩
abbrev main_cst_1 : Ref sig .tc := ⟨.hbm, 17, rfl⟩
abbrev main_v2 : Ref sig .tc := ⟨.hbm, 18, rfl⟩
abbrev main_v3 : Ref sig .tc := ⟨.hbm, 19, rfl⟩
abbrev main_cst_2 : Ref sig .tc := ⟨.hbm, 20, rfl⟩
abbrev main_v4 : Ref sig .tc := ⟨.hbm, 21, rfl⟩
abbrev main_cst_3 : Ref sig .tc := ⟨.hbm, 22, rfl⟩
abbrev main_v5 : Ref sig .tc := ⟨.hbm, 23, rfl⟩
abbrev main_cst_4 : Ref sig .tc := ⟨.hbm, 24, rfl⟩
abbrev main_v6 : Ref sig .tc := ⟨.hbm, 25, rfl⟩
abbrev main_v7 : Ref sig .tc := ⟨.hbm, 26, rfl⟩
abbrev main_cst_5 : Ref sig .tc := ⟨.hbm, 27, rfl⟩
abbrev main_v8 : Ref sig .tc := ⟨.hbm, 28, rfl⟩
abbrev main_cst_6 : Ref sig .tc := ⟨.hbm, 29, rfl⟩
abbrev main_v9 : Ref sig .tc := ⟨.hbm, 30, rfl⟩
abbrev main_cst_7 : Ref sig .tc := ⟨.hbm, 31, rfl⟩
abbrev main_v10 : Ref sig .tc := ⟨.hbm, 32, rfl⟩
abbrev main_v11 : Ref sig .tc := ⟨.hbm, 33, rfl⟩
abbrev main_cst_8 : Ref sig .tc := ⟨.hbm, 34, rfl⟩
abbrev main_v12 : Ref sig .tc := ⟨.hbm, 35, rfl⟩
abbrev main_cst_9 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_cst_10 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_11 : Ref sig .tc := ⟨.hbm, 65, rfl⟩
abbrev main_v40 : Ref sig .tc := ⟨.hbm, 66, rfl⟩
abbrev main_cst_12 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_13 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_14 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]

class Facts₀ : Prop where
  reducesTo_S32x256x64x64_S32x64x64_d1 : S32x256x64x64.ReducesTo [1] S32x64x64
  h_S_ : 0 < S_.numel
  bcast_S_S32x64x64 : S_.BroadcastsInDim S32x64x64 (![] : Fin 0 → Fin S32x64x64.rank)
  reducesTo_S32x64x64_S32x64_d1 : S32x64x64.ReducesTo [1] S32x64
  bcast_S_S32x64 : S_.BroadcastsInDim S32x64 (![] : Fin 0 → Fin S32x64.rank)
  reducesTo_S32x64x64_S32x64_d2 : S32x64x64.ReducesTo [2] S32x64
  reducesTo_S32x64_S32_d1 : S32x64.ReducesTo [1] S32
  bcast_S_S32 : S_.BroadcastsInDim S32 (![] : Fin 0 → Fin S32.rank)
  bcast_S32_S32x1_0 : S32.BroadcastsInDim S32x1 (![0] : Fin 1 → Fin S32x1.rank)
  bcast_S32x1_S32x64_0_1 : S32x1.BroadcastsInDim S32x64 (![0, 1] : Fin 2 → Fin S32x64.rank)
  bcast_S1x64_S32x64_0_1 : S1x64.BroadcastsInDim S32x64 (![0, 1] : Fin 2 → Fin S32x64.rank)
  bcast_S32x64_S32x64x1_0_1 : S32x64.BroadcastsInDim S32x64x1 (![0, 1] : Fin 2 → Fin S32x64x1.rank)
  bcast_S32x64_S32x1x64_0_2 : S32x64.BroadcastsInDim S32x1x64 (![0, 2] : Fin 2 → Fin S32x1x64.rank)
  bcast_S32x64x1_S32x64x64_0_1_2 : S32x64x1.BroadcastsInDim S32x64x64 (![0, 1, 2] : Fin 3 → Fin S32x64x64.rank)
  bcast_S32x1x64_S32x64x64_0_1_2 : S32x1x64.BroadcastsInDim S32x64x64 (![0, 1, 2] : Fin 3 → Fin S32x64x64.rank)
  bcast_S32x64x64_S32x1x64x64_0_2_3 : S32x64x64.BroadcastsInDim S32x1x64x64 (![0, 2, 3] : Fin 3 → Fin S32x1x64x64.rank)
  bcast_S_S32x1x64x64 : S_.BroadcastsInDim S32x1x64x64 (![] : Fin 0 → Fin S32x1x64x64.rank)
  bcast_S32x1x64x64_S32x256x64x64_0_1_2_3 : S32x1x64x64.BroadcastsInDim S32x256x64x64 (![0, 1, 2, 3] : Fin 4 → Fin S32x256x64x64.rank)
  dot_S32x64_S64x1_S32x1_1_0_0_1_n_n_wf : DotDims.WF S32x64 S64x1 S32x1 [1] [0] [0] [1] [] []

variable [Facts₀]

def dot_S32x64_S64x1_S32x1_1_0_0_1_n_n : DotDims S32x64 S64x1 S32x1 where
  lhsContracting := [1]
  rhsContracting := [0]
  lhsNonContracting := [0]
  rhsNonContracting := [1]
  lhsBatch := []
  rhsBatch := []
  wf := dot_S32x64_S64x1_S32x1_1_0_0_1_n_n_wf

class Facts : Prop extends Facts₀ where

variable [Facts]
-- ==== Proof.Spec.lean ====
/-
  The function both programs compute, written once over plain index types.

  For one batch element the input is a slab `X c h w` (256 channels over a 64 × 64 grid of pixels). At every pixel the
  channels are reduced twice: to their maximum and to their mean (the sum divided by 256). Each of the two 64 × 64
  maps is reduced again along the rows and along the columns, again to a maximum and to a mean (the sum divided by
  64), which gives four vectors of length 64. A "branch" turns a (mean, maximum) pair of such vectors and six weight
  vectors into one vector of length 64: with `s` the softmax of the mean vector,
      branch k = ⟨tanh (⟨max, a₁⟩ · s + b₁), a₂⟩ · tanh (⟨mean, a₀⟩ · s k + b₀ k) + b₂ k .
  The gate at pixel (h, w) is `tanh (branch_rows h · branch_columns w) + 1`, and the result is the input multiplied,
  at every channel, by the gate of its pixel.

  Every operation is the exact one on the extended reals, in the order and grouping written here; float words the
  programs spell are kept as words (`Ideal.ofBits`), never evaluated.
-/
import Idealize.ShloMosaic.PureOps.Ideal
import Idealize.ShloMosaic.PureOps.Ideal.Laws
import Idealize.ShloMosaic.Lib.ValueIdx

noncomputable section

namespace Cert.SpatialGate

open Idealize.ShloMosaic Idealize.ShloMosaic.ValueIdx

/-- The word of −∞, the value every maximum is folded from. -/
abbrev negInf : EReal := Ideal.ofBits .f32 0xFF800000#32
/-- The word of 256.0, the divisor of the mean over channels. -/
abbrev w256 : EReal := Ideal.ofBits .f32 0x43800000#32
/-- The word of 64.0, the divisor of the means over rows and over columns. -/
abbrev w64 : EReal := Ideal.ofBits .f32 0x42800000#32
/-- The word of 1.0, added to the gate. -/
abbrev wOne : EReal := Ideal.ofBits .f32 0x3F800000#32

/-- The maximum of finitely many extended reals, folded from −∞. -/
def maxOver {n : Nat} (f : Fin n → EReal) : EReal := (Finset.univ : Finset (Fin n)).fold max negInf f

/-- The maximum over the 256 channels at a pixel. -/
def chanMax (X : Fin 256 → Fin 64 → Fin 64 → EReal) (h w : Fin 64) : EReal := maxOver fun c => X c h w
/-- The mean over the 256 channels at a pixel. -/
def chanMean (X : Fin 256 → Fin 64 → Fin 64 → EReal) (h w : Fin 64) : EReal := Ideal.div (∑ c : Fin 256, X c h w) w256

/-- The maximum of column `w` of a 64 × 64 map (over its rows `h`). -/
def colMax (M : Fin 64 → Fin 64 → EReal) (w : Fin 64) : EReal := maxOver fun h => M h w
/-- The mean of column `w`. -/
def colMean (M : Fin 64 → Fin 64 → EReal) (w : Fin 64) : EReal := Ideal.div (∑ h : Fin 64, M h w) w64
/-- The maximum of row `h` (over its columns `w`). -/
def rowMax (M : Fin 64 → Fin 64 → EReal) (h : Fin 64) : EReal := maxOver fun w => M h w
/-- The mean of row `h`. -/
def rowMean (M : Fin 64 → Fin 64 → EReal) (h : Fin 64) : EReal := Ideal.div (∑ w : Fin 64, M h w) w64

/-- The shift of a softmax: the maximum of −∞ and the vector's maximum. -/
def shift (v : Fin 64 → EReal) : EReal := max negInf (maxOver v)
/-- Softmax of a vector of length 64: exponentials of the shifted entries over their sum. -/
def softmax (v : Fin 64 → EReal) (k : Fin 64) : EReal :=
  Ideal.div (Ideal.exp (v k - shift v)) (∑ j : Fin 64, Ideal.exp (v j - shift v))
/-- The inner product of two vectors of length 64. -/
def dot (u v : Fin 64 → EReal) : EReal := ∑ k : Fin 64, u k * v k

/-- One branch: see the header. -/
def branch (mean mx a0 a1 a2 b0 b1 b2 : Fin 64 → EReal) (k : Fin 64) : EReal :=
  dot (fun j => Ideal.tanh (dot mx a1 * softmax mean j + b1 j)) a2 * Ideal.tanh (dot mean a0 * softmax mean k + b0 k) + b2 k

/-- The gate at pixel (h, w): the rows' branch at `h` times the columns' branch at `w`, through tanh, plus one. -/
def gate (X : Fin 256 → Fin 64 → Fin 64 → EReal) (a0 a1 a2 b0 b1 b2 g0 g1 g2 d0 d1 d2 : Fin 64 → EReal) (h w : Fin 64) : EReal :=
  Ideal.tanh (branch (rowMean (chanMean X)) (rowMax (chanMax X)) g0 g1 g2 d0 d1 d2 h
      * branch (colMean (chanMean X)) (colMax (chanMax X)) a0 a1 a2 b0 b1 b2 w) + wOne

/-- Pixel (h, w) of the 64 × 64 grid in the flattened order: position 64 h + w of 4096. -/
def pix (h w : Fin 64) : Fin 4096 := ⟨64 * h.val + w.val, by have := h.isLt; have := w.isLt; omega⟩
/-- The row of a flattened pixel position. -/
def pixRow (p : Fin 4096) : Fin 64 := ⟨p.val / 64, by have := p.isLt; omega⟩
/-- The column of a flattened pixel position. -/
def pixCol (p : Fin 4096) : Fin 64 := ⟨p.val % 64, Nat.mod_lt _ (by norm_num)⟩

theorem pix_row_col (p : Fin 4096) : pix (pixRow p) (pixCol p) = p := by
  apply Fin.ext; show 64 * (p.val / 64) + p.val % 64 = p.val; omega
theorem pixRow_pix (h w : Fin 64) : pixRow (pix h w) = h := by
  apply Fin.ext; show (64 * h.val + w.val) / 64 = h.val; have := w.isLt; omega
theorem pixCol_pix (h w : Fin 64) : pixCol (pix h w) = w := by
  apply Fin.ext; show (64 * h.val + w.val) % 64 = w.val; have := w.isLt; omega

/-- One [1, 256, 4096] block (a batch element with its pixels flattened) as a slab. -/
abbrev blockSlab (x0 : (⟨3, ![1, 256, 4096]⟩ : Shape).Idx → EReal) : Fin 256 → Fin 64 → Fin 64 → EReal :=
  fun c h w => x0 (ix3 (0 : Fin 1) c (pix h w))

/-- A 64 × 1 array as a vector of length 64. -/
abbrev col (x : (⟨2, ![64, 1]⟩ : Shape).Idx → EReal) : Fin 64 → EReal := fun k => x (ix2 k (0 : Fin 1))
/-- A 1 × 64 array as a vector of length 64. -/
abbrev row (x : (⟨2, ![1, 64]⟩ : Shape).Idx → EReal) : Fin 64 → EReal := fun k => x (ix2 (0 : Fin 1) k)
/-- Batch element `b` of the input array as a slab. -/
abbrev slab (x0 : (⟨4, ![32, 256, 64, 64]⟩ : Shape).Idx → EReal) (b : Fin 32) : Fin 256 → Fin 64 → Fin 64 → EReal :=
  fun c h w => x0 (ix4 b c h w)

/-- The result at (b, c, h, w): the input there times the gate of batch element `b` at pixel (h, w). The weight
    arrays are taken in the order of the programs' arguments. -/
def out (x0 : (⟨4, ![32, 256, 64, 64]⟩ : Shape).Idx → EReal)
    (x1 x2 x3 : (⟨2, ![64, 1]⟩ : Shape).Idx → EReal) (x4 x5 x6 : (⟨2, ![1, 64]⟩ : Shape).Idx → EReal)
    (x7 x8 x9 : (⟨2, ![64, 1]⟩ : Shape).Idx → EReal) (x10 x11 x12 : (⟨2, ![1, 64]⟩ : Shape).Idx → EReal)
    (b : Fin 32) (c : Fin 256) (h w : Fin 64) : EReal :=
  x0 (ix4 b c h w)
    * gate (slab x0 b) (col x1) (col x2) (col x3) (row x4) (row x5) (row x6) (col x7) (col x8) (col x9) (row x10) (row x11) (row x12) h w

/-- The whole result array. -/
def outArr (x0 : (⟨4, ![32, 256, 64, 64]⟩ : Shape).Idx → EReal)
    (x1 x2 x3 : (⟨2, ![64, 1]⟩ : Shape).Idx → EReal) (x4 x5 x6 : (⟨2, ![1, 64]⟩ : Shape).Idx → EReal)
    (x7 x8 x9 : (⟨2, ![64, 1]⟩ : Shape).Idx → EReal) (x10 x11 x12 : (⟨2, ![1, 64]⟩ : Shape).Idx → EReal) :
    (⟨4, ![32, 256, 64, 64]⟩ : Shape).Idx → EReal :=
  fun i => out x0 x1 x2 x3 x4 x5 x6 x7 x8 x9 x10 x11 x12 (i 0) (i 1) (i 2) (i 3)

end Cert.SpatialGate

end
-- ==== Proof.Interface.lean ====
/-
  The two statements the halves of the proof meet at.

  `BlockLaw`: what one grid point's body leaves in its output block, read at channel `c` and flattened pixel `p`, is
  the input block there times the gate of the block's slab at that pixel — the body's chunked maxima and sums and its
  multiplication by 2⁻⁸ regrouped into the maxima, sums and quotient by 256 the specification is written with.
-/
import proofs.«117305_j1580547973359_2_alg».proof.Proof.Gen.KernelIdeal.Frame
import proofs.«117305_j1580547973359_2_alg».proof.Proof.Spec

noncomputable section

namespace Cert.SpatialGate

open Idealize.ShloMosaic Idealize.ShloMosaic.ValueIdx Cert.KernelIdeal

/-- The body's output block, index by index, is the block law's right-hand side. -/
def BlockLaw : Prop :=
  ∀ (x0 : Vec Ideal S1x256x4096 .f32) (x1 x2 x3 : Vec Ideal S64x1 .f32) (x4 x5 x6 : Vec Ideal S1x64 .f32)
    (x7 x8 x9 : Vec Ideal S64x1 .f32) (x10 x11 x12 : Vec Ideal S1x64 .f32) (c : Fin 256) (p : Fin 4096),
    Gen.out0_13 (F := Ideal) x0 x1 x2 x3 x4 x5 x6 x7 x8 x9 x10 x11 x12 (ix3 (0 : Fin 1) c p)
      = x0 (ix3 (0 : Fin 1) c p)
        * gate (blockSlab x0) (col x1) (col x2) (col x3) (row x4) (row x5) (row x6) (col x7) (col x8) (col x9)
            (row x10) (row x11) (row x12) (pixRow p) (pixCol p)

end Cert.SpatialGate

end
-- ==== Proof.Regroup.lean ====
/-
  Regrouping laws between the body's chunked reductions and the specification's whole ones.

  The body walks the 256 channels in four chunks of 64: it keeps a running maximum (started at −∞) and a running sum
  (started at 0) and folds each chunk's own maximum and sum into them, then multiplies the sum by the word of 2⁻⁸.
  The specification takes one maximum and one sum over all 256 channels and divides by the word of 256. Maximum and
  sum on the extended reals are associative and commutative, so the groupings agree; and the two words denote 1/256
  and 256 exactly, so the product is the quotient, at the infinities too.
-/
import proofs.«117305_j1580547973359_2_alg».proof.Proof.Spec

noncomputable section

namespace Cert.SpatialGate

open Idealize.ShloMosaic

/-- The word 0x43800000 denotes 256. -/
theorem word_256 : Ideal.ofBits .f32 0x43800000#32 = ((256 : ℝ) : EReal) := by
  simp [Ideal.ofBits, Ideal.ieee, -EReal.coe_mul]; norm_num

/-- The word 0x3B800000 denotes 1/256. -/
theorem word_inv256 : Ideal.ofBits .f32 0x3B800000#32 = ((1 / 256 : ℝ) : EReal) := by
  simp [Ideal.ofBits, Ideal.ieee, -EReal.coe_mul]; norm_num

/-- Multiplying by the word of 2⁻⁸ is dividing by the word of 256, on every extended real. -/
theorem mul_word_inv256 (s : EReal) : s * Ideal.ofBits .f32 0x3B800000#32 = Ideal.div s w256 := by
  show s * Ideal.ofBits .f32 0x3B800000#32 = Ideal.div s (Ideal.ofBits .f32 0x43800000#32)
  rw [word_256, word_inv256, Ideal.div_coe (by norm_num : (256 : ℝ) ≠ 0)]

/-- Channel `64 j + r`: entry `r` of chunk `j`. -/
def chanEquiv : Fin 4 × Fin 64 ≃ Fin 256 where
  toFun x := ⟨64 * x.1.val + x.2.val, by have := x.1.isLt; have := x.2.isLt; omega⟩
  invFun c := (⟨c.val / 64, by have := c.isLt; omega⟩, ⟨c.val % 64, Nat.mod_lt _ (by norm_num)⟩)
  left_inv x := by
    rcases x with ⟨⟨j, hj⟩, ⟨r, hr⟩⟩
    refine Prod.ext (Fin.ext ?_) (Fin.ext ?_)
    · show (64 * j + r) / 64 = j; omega
    · show (64 * j + r) % 64 = r; omega
  right_inv c := by
    apply Fin.ext
    show 64 * (c.val / 64) + c.val % 64 = c.val
    omega

/-- Entry `r` of chunk `j` as a channel. -/
abbrev chan (j : Fin 4) (r : Fin 64) : Fin 256 := chanEquiv (j, r)

theorem chan_val (j : Fin 4) (r : Fin 64) : (chan j r).val = 64 * j.val + r.val := rfl

/-- The four chunk sums, added up from 0, are the sum over all channels. -/
theorem sum_chunks (f : Fin 256 → EReal) :
    (((0 + ∑ r : Fin 64, f (chan 0 r)) + ∑ r : Fin 64, f (chan 1 r)) + ∑ r : Fin 64, f (chan 2 r))
        + ∑ r : Fin 64, f (chan 3 r) = ∑ c : Fin 256, f c := by
  rw [← Equiv.sum_comp chanEquiv f, Fintype.sum_prod_type, Fin.sum_univ_four, zero_add]

/-- The four chunk maxima, folded into a running maximum from −∞, are the maximum over all channels. -/
theorem max_chunks (f : Fin 256 → EReal) :
    max (max (max (max negInf (maxOver fun r : Fin 64 => f (chan 0 r))) (maxOver fun r : Fin 64 => f (chan 1 r)))
        (maxOver fun r : Fin 64 => f (chan 2 r))) (maxOver fun r : Fin 64 => f (chan 3 r)) = maxOver f := by
  refine eq_of_forall_ge_iff fun c => ?_
  simp only [maxOver, max_le_iff, Finset.fold_max_le, Finset.mem_univ, forall_const]
  constructor
  · rintro ⟨⟨⟨⟨h0, _, a0⟩, _, a1⟩, _, a2⟩, _, a3⟩
    refine ⟨h0, fun k => ?_⟩
    rw [← chanEquiv.apply_symm_apply k]
    generalize chanEquiv.symm k = x
    rcases x with ⟨j, r⟩
    fin_cases j
    · exact a0 r
    · exact a1 r
    · exact a2 r
    · exact a3 r
  · rintro ⟨h0, a⟩
    exact ⟨⟨⟨⟨h0, h0, fun r => a _⟩, h0, fun r => a _⟩, h0, fun r => a _⟩, h0, fun r => a _⟩

end Cert.SpatialGate

end
-- ==== Proof.LibAxisFold.lean ====
/-
A matrix reduced along one axis, read at an index.

Reducing an `A × B` matrix over its rows (axis 0) leaves, at column `q`, the sum — or the maximum, folded from
the accumulator's value — of the entries `(r, q)` over the rows `r`; reducing over its columns (axis 1) leaves, at row
`p`, the same over the entries `(p, r)`. The exact sums and maxima of the extended reals are meant, so no order
of evaluation is left in the result.
-/
import Idealize.ShloMosaic.PureOps.Ideal.Laws
import Idealize.ShloMosaic.Lib.ValueIdx

noncomputable section

namespace Cert.LibAxisFold

open Idealize.ShloMosaic Idealize.ShloMosaic.ValueIdx

variable {A B : ℕ}

/-- Column `q` of the reduced vector comes from the entries `(r, q)`. -/
theorem lift_axis0 (h : (⟨2, ![A, B]⟩ : Shape).Reduces [0] ⟨1, ![B]⟩) (q : Fin B) (r : Fin A) :
    h.lift (ix1 q) r = ix2 r q :=
  funext fun a => Fin.ext (by match a with | ⟨0, _⟩ => rfl | ⟨1, _⟩ => rfl)

/-- Row `p` of the reduced vector comes from the entries `(p, r)`. -/
theorem lift_axis1 (h : (⟨2, ![A, B]⟩ : Shape).Reduces [1] ⟨1, ![A]⟩) (p : Fin A) (r : Fin B) :
    h.lift (ix1 p) r = ix2 p r :=
  funext fun a => Fin.ext (by match a with | ⟨0, _⟩ => rfl | ⟨1, _⟩ => rfl)

/-- The sum over the rows, at column `q`. -/
theorem sum_axis0 (v : FVec Ideal ⟨2, ![A, B]⟩ .f32) (acc : BitVec (FTy.f32).bits)
    (h : (⟨2, ![A, B]⟩ : Shape).Reduces [0] ⟨1, ![B]⟩) (hφ : FKind.Formats .f32) (hacc : acc = FKind.add.neutral .f32 hφ) (q : Fin B) :
    multiReduction .add [0] ⟨1, ![B]⟩ v acc h hφ hacc (ix1 q) = ∑ r : Fin A, v (ix2 r q) :=
  (Ideal.multiReduction_add_single v acc h hφ hacc (ix1 q)).trans
    (Finset.sum_congr rfl fun r _ => congrArg v (lift_axis0 h q r))

/-- The sum over the columns, at row `p`. -/
theorem sum_axis1 (v : FVec Ideal ⟨2, ![A, B]⟩ .f32) (acc : BitVec (FTy.f32).bits)
    (h : (⟨2, ![A, B]⟩ : Shape).Reduces [1] ⟨1, ![A]⟩) (hφ : FKind.Formats .f32) (hacc : acc = FKind.add.neutral .f32 hφ) (p : Fin A) :
    multiReduction .add [1] ⟨1, ![A]⟩ v acc h hφ hacc (ix1 p) = ∑ r : Fin B, v (ix2 p r) :=
  (Ideal.multiReduction_add_single v acc h hφ hacc (ix1 p)).trans
    (Finset.sum_congr rfl fun r _ => congrArg v (lift_axis1 h p r))

/-- The maximum over the rows, at column `q`, folded from the accumulator's value. -/
theorem max_axis0 (v : FVec Ideal ⟨2, ![A, B]⟩ .f32) (acc : BitVec (FTy.f32).bits)
    (h : (⟨2, ![A, B]⟩ : Shape).Reduces [0] ⟨1, ![B]⟩) (hφ : FKind.Formats .f32) (hacc : acc = FKind.maximumf.neutral .f32 hφ) (q : Fin B) :
    multiReduction .maximumf [0] ⟨1, ![B]⟩ v acc h hφ hacc (ix1 q)
      = (Finset.univ : Finset (Fin A)).fold max (Ideal.ofBits .f32 acc) fun r => v (ix2 r q) :=
  (Ideal.multiReduction_maximumf_single v acc h hφ hacc (ix1 q)).trans
    (congrArg (fun f => (Finset.univ : Finset (Fin A)).fold max (Ideal.ofBits .f32 acc) f)
      (funext fun r => congrArg v (lift_axis0 h q r)))

/-- The maximum over the columns, at row `p`, folded from the accumulator's value. -/
theorem max_axis1 (v : FVec Ideal ⟨2, ![A, B]⟩ .f32) (acc : BitVec (FTy.f32).bits)
    (h : (⟨2, ![A, B]⟩ : Shape).Reduces [1] ⟨1, ![A]⟩) (hφ : FKind.Formats .f32) (hacc : acc = FKind.maximumf.neutral .f32 hφ) (p : Fin A) :
    multiReduction .maximumf [1] ⟨1, ![A]⟩ v acc h hφ hacc (ix1 p)
      = (Finset.univ : Finset (Fin B)).fold max (Ideal.ofBits .f32 acc) fun r => v (ix2 p r) :=
  (Ideal.multiReduction_maximumf_single v acc h hφ hacc (ix1 p)).trans
    (congrArg (fun f => (Finset.univ : Finset (Fin B)).fold max (Ideal.ofBits .f32 acc) f)
      (funext fun r => congrArg v (lift_axis1 h p r)))

end Cert.LibAxisFold

end
-- ==== Proof.LibColumn.lean ====
/-
A column read through layout operations.

A column of `a` entries is stored either as a vector of shape `[a]` or as a matrix of shape
`[a, 1]`.  Reshaping between the two keeps entry `p` at row `p` (the only column being
column `0`), and stretching the `[a, 1]` matrix to `[a, b]` repeats entry `p` along row
`p`: the result at `(p, q)` is the column at `(p, 0)`.  The same holds when the stretch or the
added unit axis is written as a broadcast along named axes, and a vector of `b` entries placed
along the second axis of a `[1, b]` matrix keeps entry `q` at `(0, q)`.
-/
import Idealize.ShloMosaic.Lib.ValueLayout
import Idealize.ShloMosaic.Lib.Pipeline.Value
import Idealize.ShloMosaic.Lib.ValueIdx

namespace Cert.LibColumn

open Idealize.ShloMosaic Idealize.ShloMosaic.ValueIdx

variable {α : Type}

/-! ### Reshaping between a vector and a one-column matrix -/

/-- An `[a]` vector reshaped to `[a, 1]` reads, at `(p, u)`, the vector at `p`, whatever the
    unit coordinate `u`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` matrix reshaped to `[a]` reads, at `p`, the matrix at `(p, 0)`. -/
theorem shapeCast_a1_a_apply {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    rw [Nat.mul_one, Nat.add_zero])

/-! ### Stretching a one-column matrix along its rows -/

/-- An `[a, 1]` matrix stretched to `[a, b]` reads, at `(p, q)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The same at an index not yet split into coordinates: the result at `j` is the column at
    `(j 0, 0)`. -/
theorem broadcastTo_a1_ab_apply' {a b : ℕ} (v : (⟨2, ![a, 1]⟩ : Shape).Idx → α)
    (h : (⟨2, ![a, 1]⟩ : Shape).Broadcasts ⟨2, ![a, b]⟩) (j : (⟨2, ![a, b]⟩ : Shape).Idx) :
    broadcastTo ⟨2, ![a, b]⟩ v h j = v (ix2 (j 0) (0 : Fin 1)) := by
  obtain ⟨p, q, rfl⟩ : ∃ (p : Fin a) (q : Fin b), j = ix2 p q := ⟨j 0, j 1, eq_ix2 j⟩
  exact broadcastTo_a1_ab_apply v h p q

/-! ### The same operations written as broadcasts along named axes -/

/-- An `[a]` vector broadcast into `[a, 1]` along axis `0` reads, at `(p, u)`, the vector at
    `p`. -/
theorem broadcastInDim_a_a1_apply {a : ℕ}
    (h : (⟨1, ![a]⟩ : Shape).BroadcastsInDim ⟨2, ![a, 1]⟩ ![0])
    (x : (⟨1, ![a]⟩ : Shape).Idx → α) (p : Fin a) (u : Fin 1) :
    broadcastInDim ⟨2, ![a, 1]⟩ ![0] h x (ix2 p u) = x (ix1 p) := by
  refine broadcastInDim_apply ![0] h x (ix2 p u) (ix1 p) fun ax => ?_
  match ax with
  | ⟨0, _⟩ =>
    show p.val = if a = 1 then 0 else p.val
    split
    · have := p.isLt; omega
    · rfl

/-- An `[a, 1]` matrix broadcast into `[a, b]` along axes `0, 1` reads, at `(p, q)`, the column
    at `(p, 0)`. -/
theorem broadcastInDim_a1_ab_apply {a b : ℕ}
    (h : (⟨2, ![a, 1]⟩ : Shape).BroadcastsInDim ⟨2, ![a, b]⟩ ![0, 1])
    (x : (⟨2, ![a, 1]⟩ : Shape).Idx → α) (p : Fin a) (q : Fin b) :
    broadcastInDim ⟨2, ![a, b]⟩ ![0, 1] h x (ix2 p q) = x (ix2 p (0 : Fin 1)) := by
  refine broadcastInDim_apply ![0, 1] h x (ix2 p q) (ix2 p (0 : Fin 1)) fun ax => ?_
  match ax with
  | ⟨0, _⟩ =>
    show p.val = if a = 1 then 0 else p.val
    split
    · have := p.isLt; omega
    · rfl
  | ⟨1, _⟩ => rfl

/-- A `[b]` vector broadcast into `[1, b]` along axis `1` reads, at `(u, q)`, the vector at
    `q`. -/
theorem broadcastInDim_b_1b_apply {b : ℕ}
    (h : (⟨1, ![b]⟩ : Shape).BroadcastsInDim ⟨2, ![1, b]⟩ ![1])
    (x : (⟨1, ![b]⟩ : Shape).Idx → α) (u : Fin 1) (q : Fin b) :
    broadcastInDim ⟨2, ![1, b]⟩ ![1] h x (ix2 u q) = x (ix1 q) := by
  refine broadcastInDim_apply ![1] h x (ix2 u q) (ix1 q) fun ax => ?_
  match ax with
  | ⟨0, _⟩ =>
    show q.val = if b = 1 then 0 else q.val
    split
    · have := q.isLt; omega
    · rfl

end Cert.LibColumn
-- ==== Proof.BodyFold.lean ====
/-
  The body's reductions, read at an index.

  The body sees its block as four chunks of 64 channels, each chunk a 64 × 4096 matrix (channel, flattened pixel). For
  every pixel it folds the four chunk maxima into a running maximum and the four chunk sums into a running sum, and
  scales the sum by the word of 2⁻⁸. It then views the two rows of 4096 pixels as 64 × 64 maps (pixel 64 h + w at
  (h, w)) and reduces each map along its rows and along its columns; the means divide by the word of 64.0. Here each
  of these values is read at an index as the plain maximum or sum it is.
-/
import proofs.«117305_j1580547973359_2_alg».proof.Proof.Gen.KernelIdeal.Skeleton
import proofs.«117305_j1580547973359_2_alg».proof.Proof.Spec
import proofs.«117305_j1580547973359_2_alg».proof.Proof.LibAxisFold
import proofs.«117305_j1580547973359_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.SpatialGate

open Idealize.ShloMosaic Idealize.ShloMosaic.ValueIdx Cert.KernelIdeal Cert.KernelIdeal.Gen

/-! ## One chunk -/

/-- The maximum over a chunk's 64 channels at pixel `p`. -/
theorem chunk_max_read (v : Vec Ideal S1x64x4096 .f32) (hc1 : S1x64x4096.ShapeCasts S64x4096)
    (h : S64x4096.Reduces [0] S4096) (hφ : FKind.Formats .f32) (hacc : (0xFF800000#32 : BitVec (FTy.f32).bits) = FKind.maximumf.neutral .f32 hφ)
    (hc : S4096.ShapeCasts S1x4096) (p : Fin 4096) :
    shapeCast S1x4096 (multiReduction (F := Ideal) .maximumf [0] S4096 (shapeCast S64x4096 v hc1) 0xFF800000#32 h hφ hacc) hc (ix2 (0 : Fin 1) p)
      = maxOver fun r : Fin 64 => v (ix3 (0 : Fin 1) r p) :=
  (shapeCast_a_1a_apply _ hc 0 p).trans ((LibAxisFold.max_axis0 _ _ h hφ hacc p).trans
    (congrArg (fun f => (Finset.univ : Finset (Fin 64)).fold max negInf f)
      (funext fun r => shapeCast_1ab_ab_apply v hc1 r p)))

/-- The sum over a chunk's 64 channels at pixel `p`. -/
theorem chunk_sum_read (v : Vec Ideal S1x64x4096 .f32) (hc1 : S1x64x4096.ShapeCasts S64x4096)
    (h : S64x4096.Reduces [0] S4096) (hφ : FKind.Formats .f32) (hacc : (0x00000000#32 : BitVec (FTy.f32).bits) = FKind.add.neutral .f32 hφ)
    (hc : S4096.ShapeCasts S1x4096) (p : Fin 4096) :
    shapeCast S1x4096 (multiReduction (F := Ideal) .add [0] S4096 (shapeCast S64x4096 v hc1) 0x00000000#32 h hφ hacc) hc (ix2 (0 : Fin 1) p)
      = ∑ r : Fin 64, v (ix3 (0 : Fin 1) r p) :=
  (shapeCast_a_1a_apply _ hc 0 p).trans ((LibAxisFold.sum_axis0 _ _ h hφ hacc p).trans
    (Finset.sum_congr rfl fun r _ => shapeCast_1ab_ab_apply v hc1 r p))

/-! ## The running maximum and the scaled running sum over the four chunks -/

set_option backward.isDefEq.respectTransparency.types false in
/-- The running maximum at pixel `p`: from −∞, each chunk's maximum folded in. -/
theorem runmax_apply (v2 v10 v18 v26 : Vec Ideal S1x64x4096 .f32) (p : Fin 4096) :
    k0_pay7 (F := Ideal) v2 v10 v18 v26 (ix2 (0 : Fin 1) p)
      = max (max (max (max negInf (maxOver fun r : Fin 64 => v2 (ix3 (0 : Fin 1) r p)))
          (maxOver fun r : Fin 64 => v10 (ix3 (0 : Fin 1) r p))) (maxOver fun r : Fin 64 => v18 (ix3 (0 : Fin 1) r p)))
          (maxOver fun r : Fin 64 => v26 (ix3 (0 : Fin 1) r p)) := by
  unfold k0_pay7 k0_pay3 k0_pay4 k0_pay5 k0_pay6
  simp only [maximumf_apply, broadcast_apply]
  rw [chunk_max_read, chunk_max_read, chunk_max_read, chunk_max_read]
  rfl

set_option backward.isDefEq.respectTransparency.types false in
/-- The scaled running sum at pixel `p`: from the zero word, each chunk's sum added, times the word of 2⁻⁸. -/
theorem runsum_apply (v2 v10 v18 v26 : Vec Ideal S1x64x4096 .f32) (p : Fin 4096) :
    k0_pay8 (F := Ideal) v2 v10 v18 v26 (ix2 (0 : Fin 1) p)
      = ((((Ideal.ofBits .f32 0x00000000#32 + ∑ r : Fin 64, v2 (ix3 (0 : Fin 1) r p))
          + ∑ r : Fin 64, v10 (ix3 (0 : Fin 1) r p)) + ∑ r : Fin 64, v18 (ix3 (0 : Fin 1) r p))
          + ∑ r : Fin 64, v26 (ix3 (0 : Fin 1) r p)) * Ideal.ofBits .f32 0x3B800000#32 := by
  unfold k0_pay8 k0_pay3 k0_pay4 k0_pay5 k0_pay6
  simp only [mulf_apply, addf_apply, broadcast_apply]
  rw [chunk_sum_read, chunk_sum_read, chunk_sum_read, chunk_sum_read]
  rfl

/-! ## The rows of 4096 pixels as 64 × 64 maps -/

/-- Pixel (h, w) of the map is position 64 h + w of the row. -/
theorem map_of_row (v : FVec Ideal S1x4096 .f32) (hc : S1x4096.ShapeCasts S64x64) (h w : Fin 64) :
    shapeCast S64x64 v hc (ix2 h w) = v (ix2 (0 : Fin 1) (pix h w)) :=
  shapeCast_apply v hc (ix2 h w) (ix2 (0 : Fin 1) (pix h w)) (by
    rw [Shape.rowMajor_val_two, Shape.rowMajor_val_two]
    show 0 * 4096 + (64 * h.val + w.val) = h.val * 64 + w.val
    omega)

/-- The maximum of column `w` of the map of `v`. -/
theorem colmax_apply (v : FVec Ideal S1x4096 .f32) (w : Fin 64) :
    k0_pay11 (F := Ideal) v (ix2 (0 : Fin 1) w) = maxOver fun h : Fin 64 => v (ix2 (0 : Fin 1) (pix h w)) := by
  unfold k0_pay11 k0_pay9
  refine (shapeCast_a_1a_apply _ _ 0 w).trans ((LibAxisFold.max_axis0 _ _ _ _ _ w).trans ?_)
  exact congrArg (fun f => (Finset.univ : Finset (Fin 64)).fold max negInf f) (funext fun h => map_of_row v _ h w)

/-- The mean of column `w` of the map of `v`. -/
theorem colmean_apply (v : FVec Ideal S1x4096 .f32) (w : Fin 64) :
    k0_pay12 (F := Ideal) v (ix2 (0 : Fin 1) w) = Ideal.div (∑ h : Fin 64, v (ix2 (0 : Fin 1) (pix h w))) w64 := by
  unfold k0_pay12 k0_pay10
  simp only [divf_apply, broadcast_apply]
  refine congrArg (fun s => Ideal.div s w64) ?_
  refine (shapeCast_a_1a_apply _ _ 0 w).trans ((LibAxisFold.sum_axis0 _ _ _ _ _ w).trans ?_)
  exact Finset.sum_congr rfl fun h _ => map_of_row v _ h w

/-- The maximum of row `h` of the map of `v`. -/
theorem rowmax_apply (v : FVec Ideal S1x4096 .f32) (h : Fin 64) :
    k0_pay13 (F := Ideal) v (ix2 (0 : Fin 1) h) = maxOver fun w : Fin 64 => v (ix2 (0 : Fin 1) (pix h w)) := by
  unfold k0_pay13 k0_pay9
  refine (transpose_ix2_apply _ _ (0 : Fin 1) h).trans ((LibColumn.shapeCast_a_a1_apply _ _ h 0).trans
    ((LibAxisFold.max_axis1 _ _ _ _ _ h).trans ?_))
  exact congrArg (fun f => (Finset.univ : Finset (Fin 64)).fold max negInf f) (funext fun w => map_of_row v _ h w)

/-- The mean of row `h` of the map of `v`. -/
theorem rowmean_apply (v : FVec Ideal S1x4096 .f32) (h : Fin 64) :
    k0_pay14 (F := Ideal) v (ix2 (0 : Fin 1) h) = Ideal.div (∑ w : Fin 64, v (ix2 (0 : Fin 1) (pix h w))) w64 := by
  unfold k0_pay14 k0_pay10
  refine (transpose_ix2_apply _ _ (0 : Fin 1) h).trans ?_
  simp only [divf_apply, broadcast_apply]
  refine congrArg (fun s => Ideal.div s w64) ?_
  refine (LibColumn.shapeCast_a_a1_apply _ _ h 0).trans ((LibAxisFold.sum_axis1 _ _ _ _ _ h).trans ?_)
  exact Finset.sum_congr rfl fun w _ => map_of_row v _ h w

end Cert.SpatialGate

end
-- ==== Proof.BodyBranch.lean ====
/-
  The body's two branches and the gate, read at an index.

  The weights arrive as 64 × 1 columns and are viewed as 1 × 64 rows; every inner product is a pointwise product of two
  rows summed along the row; the softmax shifts a row by the maximum of −∞ and the row's maximum, exponentiates, and
  divides by the sum; a one-entry result is stretched back along the row. The rows' branch is turned into a column
  and stretched across the columns, the columns' branch is stretched across the rows, and their product goes
  through tanh; the 64 × 64 map so obtained is flattened back to a row of 4096 pixels and the word of 1.0 is added.
-/
import proofs.«117305_j1580547973359_2_alg».proof.Proof.Gen.KernelIdeal.Skeleton
import proofs.«117305_j1580547973359_2_alg».proof.Proof.Spec
import proofs.«117305_j1580547973359_2_alg».proof.Proof.LibAxisFold
import proofs.«117305_j1580547973359_2_alg».proof.Proof.LibColumn
import Idealize.ShloMosaic.Lib.ValueIdx
import Idealize.ShloMosaic.Lib.ValueLayout
import Idealize.ShloMosaic.Lib.Pipeline.Value
import Idealize.ShloMosaic.PureOps.Ideal.Laws

noncomputable section

namespace Cert.SpatialGate

open Idealize.ShloMosaic Idealize.ShloMosaic.ValueIdx Cert.KernelIdeal Cert.KernelIdeal.Gen

/-! ## Softmax and branch with their inner parts named -/

/-- Softmax of `v` with the shift `s` given. -/
def softmaxAt (v : Fin 64 → EReal) (s : EReal) (k : Fin 64) : EReal :=
  Ideal.div (Ideal.exp (v k - s)) (∑ j : Fin 64, Ideal.exp (v j - s))

theorem softmax_eq_at (v : Fin 64 → EReal) : softmax v = softmaxAt v (shift v) := rfl

/-- A branch with the softmax vector `sm` given. -/
def branchWith (mean mx a0 a1 a2 b0 b1 b2 sm : Fin 64 → EReal) (k : Fin 64) : EReal :=
  dot (fun j => Ideal.tanh (dot mx a1 * sm j + b1 j)) a2 * Ideal.tanh (dot mean a0 * sm k + b0 k) + b2 k

theorem branch_eq_with (mean mx a0 a1 a2 b0 b1 b2 : Fin 64 → EReal) :
    branch mean mx a0 a1 a2 b0 b1 b2 = branchWith mean mx a0 a1 a2 b0 b1 b2 (softmax mean) := rfl

/-! ## Layout -/

/-- A 64 × 1 column viewed as a 1 × 64 row keeps entry `k`. -/
theorem row_of_col (v : Vec Ideal S64x1 .f32) (hc : S64x1.ShapeCasts S1x64) (k : Fin 64) :
    shapeCast S1x64 v hc (ix2 (0 : Fin 1) k) = v (ix2 k (0 : Fin 1)) :=
  shapeCast_apply v hc (ix2 (0 : Fin 1) k) (ix2 k (0 : Fin 1)) (by
    rw [Shape.rowMajor_val_two, Shape.rowMajor_val_two]
    show k.val * 1 + 0 = 0 * 64 + k.val
    omega)

/-- The 64 × 64 map flattened to a row of 4096: position `p` is pixel (p / 64, p % 64). -/
theorem row_of_map (v : FVec Ideal S64x64 .f32) (hc : S64x64.ShapeCasts S1x4096) (p : Fin 4096) :
    shapeCast S1x4096 v hc (ix2 (0 : Fin 1) p) = v (ix2 (pixRow p) (pixCol p)) :=
  shapeCast_apply v hc (ix2 (0 : Fin 1) p) (ix2 (pixRow p) (pixCol p)) (by
    rw [Shape.rowMajor_val_two, Shape.rowMajor_val_two]
    show (p.val / 64) * 64 + p.val % 64 = 0 * 4096 + p.val
    omega)

/-- A one-entry vector viewed 1 × 1 and stretched along a row of 64 is that entry everywhere. -/
theorem scalar_bcast (s : FVec Ideal S1 .f32) (hc : S1.ShapeCasts S1x1) (hb : S1x1.Broadcasts S1x64) (k : Fin 64) :
    broadcastTo S1x64 (shapeCast S1x1 s hc) hb (ix2 (0 : Fin 1) k) = s (ix1 (0 : Fin 1)) :=
  (LibColumn.broadcastTo_a1_ab_apply _ hb (0 : Fin 1) k).trans (shapeCast_a_1a_apply s hc (0 : Fin 1) (0 : Fin 1))

/-- A 1 × 1 entry stretched along a row of 64. -/
theorem one_bcast (s : FVec Ideal S1x1 .f32) (hb : S1x1.Broadcasts S1x64) (k : Fin 64) :
    broadcastTo S1x64 s hb (ix2 (0 : Fin 1) k) = s (ix2 (0 : Fin 1) (0 : Fin 1)) :=
  LibColumn.broadcastTo_a1_ab_apply s hb (0 : Fin 1) k

/-- The sum along a row of 64, as the one entry of the reduced vector. -/
theorem rowsum_read (v : FVec Ideal S1x64 .f32) (h : S1x64.Reduces [1] S1) (hφ : FKind.Formats .f32)
    (hacc : (0x00000000#32 : BitVec 32) = 0x00000000#32) :
    multiReduction (F := Ideal) .add [1] S1 v 0x00000000#32 h hφ hacc (ix1 (0 : Fin 1)) = ∑ j : Fin 64, v (ix2 (0 : Fin 1) j) :=
  LibAxisFold.sum_axis1 v _ h hφ hacc (0 : Fin 1)

/-- The maximum along a row of 64, folded from −∞, as the one entry of the reduced vector. -/
theorem rowmaxfold_read (v : FVec Ideal S1x64 .f32) (h : S1x64.Reduces [1] S1) (hφ : FKind.Formats .f32)
    (hacc : (0xFF800000#32 : BitVec 32) = 0xFF800000#32) :
    multiReduction (F := Ideal) .maximumf [1] S1 v 0xFF800000#32 h hφ hacc (ix1 (0 : Fin 1)) = maxOver fun j : Fin 64 => v (ix2 (0 : Fin 1) j) :=
  LibAxisFold.max_axis1 v _ h hφ hacc (0 : Fin 1)

/-- The reduced vector has one entry: as a function it is constant at the row's sum. -/
theorem rowsum_fn (v : FVec Ideal S1x64 .f32) (h : S1x64.Reduces [1] S1) (hφ : FKind.Formats .f32)
    (hacc : (0x00000000#32 : BitVec 32) = 0x00000000#32) :
    multiReduction (F := Ideal) .add [1] S1 v 0x00000000#32 h hφ hacc = fun _ => ∑ j : Fin 64, v (ix2 (0 : Fin 1) j) :=
  funext fun i => by
    obtain ⟨u, rfl⟩ : ∃ u : Fin 1, i = ix1 u := ⟨i 0, eq_ix1 i⟩
    obtain rfl : u = 0 := Subsingleton.elim _ _
    exact rowsum_read v h hφ hacc

/-- … and constant at the row's maximum. -/
theorem rowmax_fn (v : FVec Ideal S1x64 .f32) (h : S1x64.Reduces [1] S1) (hφ : FKind.Formats .f32)
    (hacc : (0xFF800000#32 : BitVec 32) = 0xFF800000#32) :
    multiReduction (F := Ideal) .maximumf [1] S1 v 0xFF800000#32 h hφ hacc = fun _ => maxOver fun j : Fin 64 => v (ix2 (0 : Fin 1) j) :=
  funext fun i => by
    obtain ⟨u, rfl⟩ : ∃ u : Fin 1, i = ix1 u := ⟨i 0, eq_ix1 i⟩
    obtain rfl : u = 0 := Subsingleton.elim _ _
    exact rowmaxfold_read v h hφ hacc

/-- A one-entry vector stretched along a row, as a function: constant at the entry. -/
theorem scalar_bcast_fn (s : FVec Ideal S1 .f32) (hc : S1.ShapeCasts S1x1) (hb : S1x1.Broadcasts S1x64) :
    broadcastTo S1x64 (shapeCast S1x1 s hc) hb = fun _ => s (ix1 (0 : Fin 1)) :=
  funext fun i => by
    obtain ⟨u, k, rfl⟩ : ∃ (u : Fin 1) (k : Fin 64), i = ix2 u k := ⟨i 0, i 1, eq_ix2 i⟩
    obtain rfl : u = 0 := Subsingleton.elim _ _
    exact scalar_bcast s hc hb k

/-- A 1 × 1 entry stretched along a row, as a function: constant at the entry. -/
theorem one_bcast_fn (s : FVec Ideal S1x1 .f32) (hb : S1x1.Broadcasts S1x64) :
    broadcastTo S1x64 s hb = fun _ => s (ix2 (0 : Fin 1) (0 : Fin 1)) :=
  funext fun i => by
    obtain ⟨u, k, rfl⟩ : ∃ (u : Fin 1) (k : Fin 64), i = ix2 u k := ⟨i 0, i 1, eq_ix2 i⟩
    obtain rfl : u = 0 := Subsingleton.elim _ _
    exact one_bcast s hb k

/-! ## The payloads -/

/-- A weight column as a row. -/
theorem wrow15 (v : Vec Ideal S64x1 .f32) (k : Fin 64) : k0_pay15 (F := Ideal) v (ix2 (0 : Fin 1) k) = v (ix2 k (0 : Fin 1)) := row_of_col v _ k
theorem wrow16 (v : Vec Ideal S64x1 .f32) (k : Fin 64) : k0_pay16 (F := Ideal) v (ix2 (0 : Fin 1) k) = v (ix2 k (0 : Fin 1)) := row_of_col v _ k
theorem wrow17 (v : Vec Ideal S64x1 .f32) (k : Fin 64) : k0_pay17 (F := Ideal) v (ix2 (0 : Fin 1) k) = v (ix2 k (0 : Fin 1)) := row_of_col v _ k
theorem wrow18 (v : Vec Ideal S64x1 .f32) (k : Fin 64) : k0_pay18 (F := Ideal) v (ix2 (0 : Fin 1) k) = v (ix2 k (0 : Fin 1)) := row_of_col v _ k
theorem wrow19 (v : Vec Ideal S64x1 .f32) (k : Fin 64) : k0_pay19 (F := Ideal) v (ix2 (0 : Fin 1) k) = v (ix2 k (0 : Fin 1)) := row_of_col v _ k
theorem wrow20 (v : Vec Ideal S64x1 .f32) (k : Fin 64) : k0_pay20 (F := Ideal) v (ix2 (0 : Fin 1) k) = v (ix2 k (0 : Fin 1)) := row_of_col v _ k

/-- The shift of the columns' softmax: the maximum of −∞ and the maximum of the column means. -/
theorem shiftW_apply (v35 : FVec Ideal S1x4096 .f32) :
    k0_pay21 (F := Ideal) v35 (ix1 (0 : Fin 1)) = max negInf (maxOver fun k : Fin 64 => k0_pay12 (F := Ideal) v35 (ix2 (0 : Fin 1) k)) := by
  unfold k0_pay21
  simp only [maximumf_apply, broadcast_apply]
  rw [rowmaxfold_read]
  rfl

/-- The columns' branch, with the shift `v69` handed in. -/
theorem branchW_apply (v39 v43 v53 v55 v57 : FVec Ideal S1x64 .f32) (v64 v65 v66 : Vec Ideal S1x64 .f32) (v69 : FVec Ideal S1 .f32)
    (k : Fin 64) :
    k0_pay22 (F := Ideal) v39 v43 v53 v55 v57 v64 v65 v66 v69 (ix2 (0 : Fin 1) k)
      = branchWith (row v43) (row v39) (row v53) (row v55) (row v57) (row v64) (row v65) (row v66)
          (softmaxAt (row v43) (v69 (ix1 (0 : Fin 1)))) k := by
  unfold k0_pay22
  repeat rw [rowsum_fn]
  repeat rw [scalar_bcast_fn]
  rfl

/-- The rows' softmax. -/
theorem softmaxH_apply (v51 : FVec Ideal S1x64 .f32) (k : Fin 64) :
    k0_pay23 (F := Ideal) v51 (ix2 (0 : Fin 1) k) = softmax (row v51) k := by
  unfold k0_pay23
  repeat rw [rowsum_fn]
  repeat rw [rowmax_fn]
  repeat rw [scalar_bcast_fn]
  rfl

/-- The rows' first inner product, as a 1 × 1 entry. -/
theorem dotH0_apply (v51 v59 : FVec Ideal S1x64 .f32) :
    k0_pay24 (F := Ideal) v51 v59 (ix2 (0 : Fin 1) (0 : Fin 1)) = dot (row v51) (row v59) := by
  unfold k0_pay24
  refine (shapeCast_a_1a_apply _ _ (0 : Fin 1) (0 : Fin 1)).trans ((rowsum_read _ _ _ _).trans ?_)
  rfl

/-- The pointwise product under the rows' second inner product. -/
theorem prodH1_apply (v46 v61 : FVec Ideal S1x64 .f32) (k : Fin 64) :
    k0_pay25 (F := Ideal) v46 v61 (ix2 (0 : Fin 1) k) = row v46 k * row v61 k := rfl

/-- The gate row: position `p` holds tanh of the rows' branch at p / 64 times the columns' branch `v97` at p % 64, plus
    the word of 1.0. The rows' branch is assembled here from its softmax `v111`, its first inner product `v114` and the
    products `v115` under its second. -/
theorem gateRow_apply (v63 v97 : FVec Ideal S1x64 .f32) (v98 v99 v100 : Vec Ideal S1x64 .f32) (v111 : FVec Ideal S1x64 .f32)
    (v114 : FVec Ideal S1x1 .f32) (v115 : FVec Ideal S1x64 .f32) (p : Fin 4096) :
    k0_pay26 (F := Ideal) v63 v97 v98 v99 v100 v111 v114 v115 (ix2 (0 : Fin 1) p)
      = Ideal.tanh
          (((∑ j : Fin 64, Ideal.tanh ((∑ i : Fin 64, row v115 i) * row v111 j + row v99 j) * row v63 j)
              * Ideal.tanh (v114 (ix2 (0 : Fin 1) (0 : Fin 1)) * row v111 (pixRow p) + row v98 (pixRow p)) + row v100 (pixRow p))
            * row v97 (pixCol p)) + wOne := by
  unfold k0_pay26
  simp only [addf_apply, broadcast_apply]
  rw [row_of_map]
  show Ideal.tanh (broadcastTo S64x64 _ _ (ix2 (pixRow p) (pixCol p)) * broadcastTo S64x64 _ _ (ix2 (pixRow p) (pixCol p))) + wOne = _
  rw [LibColumn.broadcastTo_a1_ab_apply, broadcastTo_1b_ab_apply, transpose_ix2_apply]
  repeat rw [rowsum_fn]
  repeat rw [scalar_bcast_fn]
  repeat rw [one_bcast_fn]
  rfl

end Cert.SpatialGate

end
-- ==== Proof.BodyGate.lean ====
/-
  The block law: what the body leaves in its output block.

  The body stores its output block in four pieces, one per chunk of 64 channels; each piece is that chunk of the input
  block times one row of 4096 gate values, the same row for all four. The row is assembled from the body's
  reductions and branches: the running maximum and the scaled running sum over the four chunks are the maximum and
  the mean over all 256 channels (the regrouping laws), their rows and columns give the four vectors the branches
  take, and the two branches give the gate. The four pieces tile the block, so the block is one function of its index.
-/
import proofs.«117305_j1580547973359_2_alg».proof.Proof.Interface
import proofs.«117305_j1580547973359_2_alg».proof.Proof.Regroup
import proofs.«117305_j1580547973359_2_alg».proof.Proof.BodyFold
import proofs.«117305_j1580547973359_2_alg».proof.Proof.BodyBranch

noncomputable section

namespace Cert.SpatialGate

open Idealize.ShloMosaic Idealize.ShloMosaic.ValueIdx Cert.KernelIdeal Cert.KernelIdeal.Gen

/-! ## The loads -/

/-- Entry (r, p) of the load of chunk 0 is channel `r` of the block. -/
theorem ld_chunk0 (x0 : Vec Ideal S1x256x4096 .f32) (r : Fin 64) (p : Fin 4096) :
    View.ld x0 r0_0 (ix3 (0 : Fin 1) r p) = x0 (ix3 (0 : Fin 1) (chan 0 r) p) :=
  congrArg x0 (funext fun a => Fin.ext (by
    match a with
    | ⟨0, _⟩ => rfl
    | ⟨1, _⟩ => show 0 + 1 * r.val = 64 * 0 + r.val; omega
    | ⟨2, _⟩ => show 0 + 1 * p.val = p.val; omega))

/-- Entry (r, p) of the load of chunk 1 is channel `64 + r`. -/
theorem ld_chunk1 (x0 : Vec Ideal S1x256x4096 .f32) (r : Fin 64) (p : Fin 4096) :
    View.ld x0 r0_1 (ix3 (0 : Fin 1) r p) = x0 (ix3 (0 : Fin 1) (chan 1 r) p) :=
  congrArg x0 (funext fun a => Fin.ext (by
    match a with
    | ⟨0, _⟩ => rfl
    | ⟨1, _⟩ => show 64 + 1 * r.val = 64 * 1 + r.val; omega
    | ⟨2, _⟩ => show 0 + 1 * p.val = p.val; omega))

/-- Entry (r, p) of the load of chunk 2 is channel `128 + r`. -/
theorem ld_chunk2 (x0 : Vec Ideal S1x256x4096 .f32) (r : Fin 64) (p : Fin 4096) :
    View.ld x0 r0_2 (ix3 (0 : Fin 1) r p) = x0 (ix3 (0 : Fin 1) (chan 2 r) p) :=
  congrArg x0 (funext fun a => Fin.ext (by
    match a with
    | ⟨0, _⟩ => rfl
    | ⟨1, _⟩ => show 128 + 1 * r.val = 64 * 2 + r.val; omega
    | ⟨2, _⟩ => show 0 + 1 * p.val = p.val; omega))

/-- Entry (r, p) of the load of chunk 3 is channel `192 + r`. -/
theorem ld_chunk3 (x0 : Vec Ideal S1x256x4096 .f32) (r : Fin 64) (p : Fin 4096) :
    View.ld x0 r0_3 (ix3 (0 : Fin 1) r p) = x0 (ix3 (0 : Fin 1) (chan 3 r) p) :=
  congrArg x0 (funext fun a => Fin.ext (by
    match a with
    | ⟨0, _⟩ => rfl
    | ⟨1, _⟩ => show 192 + 1 * r.val = 64 * 3 + r.val; omega
    | ⟨2, _⟩ => show 0 + 1 * p.val = p.val; omega))

/-- A weight column is loaded whole. -/
theorem ld_col (x : Vec Ideal S64x1 .f32) : View.ld x r0_4 = x :=
  View.ld_unit_zero (funext fun a => by match a with | ⟨0, _⟩ => rfl | ⟨1, _⟩ => rfl) _ x

/-- A bias row is loaded whole. -/
theorem ld_row (x : Vec Ideal S1x64 .f32) : View.ld x r0_5 = x :=
  View.ld_unit_zero (funext fun a => by match a with | ⟨0, _⟩ => rfl | ⟨1, _⟩ => rfl) _ x

/-! ## The maximum and the mean over all channels -/

/-- The running maximum over the four chunk loads is the maximum over all 256 channels. -/
theorem runmax_block (x0 : Vec Ideal S1x256x4096 .f32) (p : Fin 4096) :
    k0_pay7 (F := Ideal) (View.ld x0 r0_0) (View.ld x0 r0_1) (View.ld x0 r0_2) (View.ld x0 r0_3) (ix2 (0 : Fin 1) p)
      = maxOver fun c : Fin 256 => x0 (ix3 (0 : Fin 1) c p) := by
  refine (runmax_apply _ _ _ _ p).trans (Eq.trans ?_ (max_chunks fun c => x0 (ix3 (0 : Fin 1) c p)))
  exact congrArg₂ max (congrArg₂ max (congrArg₂ max (congrArg₂ max rfl
      (congrArg maxOver (funext fun r => ld_chunk0 x0 r p))) (congrArg maxOver (funext fun r => ld_chunk1 x0 r p)))
      (congrArg maxOver (funext fun r => ld_chunk2 x0 r p))) (congrArg maxOver (funext fun r => ld_chunk3 x0 r p))

/-- The scaled running sum over the four chunk loads is the mean over all 256 channels. -/
theorem runsum_block (x0 : Vec Ideal S1x256x4096 .f32) (p : Fin 4096) :
    k0_pay8 (F := Ideal) (View.ld x0 r0_0) (View.ld x0 r0_1) (View.ld x0 r0_2) (View.ld x0 r0_3) (ix2 (0 : Fin 1) p)
      = Ideal.div (∑ c : Fin 256, x0 (ix3 (0 : Fin 1) c p)) w256 := by
  refine (runsum_apply _ _ _ _ p).trans ?_
  rw [Ideal.ofBits_zero_f32]
  refine Eq.trans ?_ (mul_word_inv256 _)
  refine congrArg (fun s => s * Ideal.ofBits .f32 0x3B800000#32) ?_
  refine Eq.trans ?_ (sum_chunks fun c => x0 (ix3 (0 : Fin 1) c p))
  exact congrArg₂ (· + ·) (congrArg₂ (· + ·) (congrArg₂ (· + ·) (congrArg (fun s => 0 + s)
      (Finset.sum_congr rfl fun r _ => ld_chunk0 x0 r p)) (Finset.sum_congr rfl fun r _ => ld_chunk1 x0 r p))
      (Finset.sum_congr rfl fun r _ => ld_chunk2 x0 r p)) (Finset.sum_congr rfl fun r _ => ld_chunk3 x0 r p)

/-! ## The gate row -/

/-- The row of 4096 gate values the body multiplies every chunk by, as its payloads compose it from the block and the
    weights. -/
def gateRow (x0 : Vec Ideal S1x256x4096 .f32) (x1 x2 x3 : Vec Ideal S64x1 .f32) (x4 x5 x6 : Vec Ideal S1x64 .f32)
    (x7 x8 x9 : Vec Ideal S64x1 .f32) (x10 x11 x12 : Vec Ideal S1x64 .f32) : FVec Ideal S1x4096 .f32 :=
  k0_pay26 (F := Ideal) (k0_pay20 (View.ld x9 r0_4)) (k0_pay22 (k0_pay11 (k0_pay7 (View.ld x0 r0_0) (View.ld x0 r0_1) (View.ld x0 r0_2) (View.ld x0 r0_3))) (k0_pay12 (k0_pay8 (View.ld x0 r0_0) (View.ld x0 r0_1) (View.ld x0 r0_2) (View.ld x0 r0_3))) (k0_pay15 (View.ld x1 r0_4)) (k0_pay16 (View.ld x2 r0_4)) (k0_pay17 (View.ld x3 r0_4)) (View.ld x4 r0_5) (View.ld x5 r0_5) (View.ld x6 r0_5) (k0_pay21 (k0_pay8 (View.ld x0 r0_0) (View.ld x0 r0_1) (View.ld x0 r0_2) (View.ld x0 r0_3)))) (View.ld x10 r0_5) (View.ld x11 r0_5) (View.ld x12 r0_5) (k0_pay23 (k0_pay14 (k0_pay8 (View.ld x0 r0_0) (View.ld x0 r0_1) (View.ld x0 r0_2) (View.ld x0 r0_3)))) (k0_pay24 (k0_pay14 (k0_pay8 (View.ld x0 r0_0) (View.ld x0 r0_1) (View.ld x0 r0_2) (View.ld x0 r0_3))) (k0_pay18 (View.ld x7 r0_4))) (k0_pay25 (k0_pay13 (k0_pay7 (View.ld x0 r0_0) (View.ld x0 r0_1) (View.ld x0 r0_2) (View.ld x0 r0_3))) (k0_pay19 (View.ld x8 r0_4)))

/-- The gate row at position `p` is the gate of the block's slab at pixel (p / 64, p % 64). -/
theorem gateRow_eq (x0 : Vec Ideal S1x256x4096 .f32) (x1 x2 x3 : Vec Ideal S64x1 .f32) (x4 x5 x6 : Vec Ideal S1x64 .f32)
    (x7 x8 x9 : Vec Ideal S64x1 .f32) (x10 x11 x12 : Vec Ideal S1x64 .f32) (p : Fin 4096) :
    gateRow x0 x1 x2 x3 x4 x5 x6 x7 x8 x9 x10 x11 x12 (ix2 (0 : Fin 1) p)
      = gate (blockSlab x0) (col x1) (col x2) (col x3) (row x4) (row x5) (row x6) (col x7) (col x8) (col x9)
          (row x10) (row x11) (row x12) (pixRow p) (pixCol p) := by
  unfold gateRow
  rw [ld_col x1, ld_col x2, ld_col x3, ld_col x7, ld_col x8, ld_col x9, ld_row x4, ld_row x5, ld_row x6,
    ld_row x10, ld_row x11, ld_row x12]
  generalize hM : k0_pay7 (F := Ideal) (View.ld x0 r0_0) (View.ld x0 r0_1) (View.ld x0 r0_2) (View.ld x0 r0_3) = MX
  generalize hA : k0_pay8 (F := Ideal) (View.ld x0 r0_0) (View.ld x0 r0_1) (View.ld x0 r0_2) (View.ld x0 r0_3) = MN
  have hmax : ∀ q : Fin 4096, MX (ix2 (0 : Fin 1) q) = maxOver fun c : Fin 256 => x0 (ix3 (0 : Fin 1) c q) :=
    fun q => hM ▸ runmax_block x0 q
  have hmean : ∀ q : Fin 4096, MN (ix2 (0 : Fin 1) q) = Ideal.div (∑ c : Fin 256, x0 (ix3 (0 : Fin 1) c q)) w256 :=
    fun q => hA ▸ runsum_block x0 q
  -- the four vectors the branches take
  have e_cmax : row (k0_pay11 (F := Ideal) MX) = colMax (chanMax (blockSlab x0)) :=
    funext fun w => (colmax_apply MX w).trans (congrArg maxOver (funext fun h => hmax (pix h w)))
  have e_cmean : row (k0_pay12 (F := Ideal) MN) = colMean (chanMean (blockSlab x0)) :=
    funext fun w => (colmean_apply MN w).trans
      (congrArg (fun s => Ideal.div s w64) (Finset.sum_congr rfl fun h _ => hmean (pix h w)))
  have e_rmax : row (k0_pay13 (F := Ideal) MX) = rowMax (chanMax (blockSlab x0)) :=
    funext fun h => (rowmax_apply MX h).trans (congrArg maxOver (funext fun w => hmax (pix h w)))
  have e_rmean : row (k0_pay14 (F := Ideal) MN) = rowMean (chanMean (blockSlab x0)) :=
    funext fun h => (rowmean_apply MN h).trans
      (congrArg (fun s => Ideal.div s w64) (Finset.sum_congr rfl fun w _ => hmean (pix h w)))
  -- the weights
  have e15 : row (k0_pay15 (F := Ideal) x1) = col x1 := funext fun k => wrow15 x1 k
  have e16 : row (k0_pay16 (F := Ideal) x2) = col x2 := funext fun k => wrow16 x2 k
  have e17 : row (k0_pay17 (F := Ideal) x3) = col x3 := funext fun k => wrow17 x3 k
  have e18 : row (k0_pay18 (F := Ideal) x7) = col x7 := funext fun k => wrow18 x7 k
  have e19 : row (k0_pay19 (F := Ideal) x8) = col x8 := funext fun k => wrow19 x8 k
  have e20 : row (k0_pay20 (F := Ideal) x9) = col x9 := funext fun k => wrow20 x9 k
  -- the columns' branch
  have hshift : k0_pay21 (F := Ideal) MN (ix1 (0 : Fin 1)) = shift (colMean (chanMean (blockSlab x0))) :=
    (shiftW_apply MN).trans (congrArg (fun f => max negInf (maxOver f)) e_cmean)
  have hW : ∀ w : Fin 64,
      row (k0_pay22 (F := Ideal) (k0_pay11 MX) (k0_pay12 MN) (k0_pay15 x1) (k0_pay16 x2) (k0_pay17 x3) x4 x5 x6 (k0_pay21 MN)) w
        = branch (colMean (chanMean (blockSlab x0))) (colMax (chanMax (blockSlab x0))) (col x1) (col x2) (col x3)
            (row x4) (row x5) (row x6) w := by
    intro w
    have h1 := branchW_apply (k0_pay11 (F := Ideal) MX) (k0_pay12 (F := Ideal) MN) (k0_pay15 (F := Ideal) x1)
      (k0_pay16 (F := Ideal) x2) (k0_pay17 (F := Ideal) x3) x4 x5 x6 (k0_pay21 (F := Ideal) MN) w
    rw [e_cmean, e_cmax, e15, e16, e17, hshift] at h1
    exact h1
  -- the rows' branch
  have h111 : row (k0_pay23 (F := Ideal) (k0_pay14 MN)) = softmax (rowMean (chanMean (blockSlab x0))) :=
    funext fun j => (softmaxH_apply (k0_pay14 (F := Ideal) MN) j).trans (by rw [e_rmean])
  have h114 : k0_pay24 (F := Ideal) (k0_pay14 MN) (k0_pay18 x7) (ix2 (0 : Fin 1) (0 : Fin 1))
      = dot (rowMean (chanMean (blockSlab x0))) (col x7) :=
    (dotH0_apply (k0_pay14 (F := Ideal) MN) (k0_pay18 (F := Ideal) x7)).trans (by rw [e_rmean, e18])
  have h115 : (∑ i : Fin 64, row (k0_pay25 (F := Ideal) (k0_pay13 MX) (k0_pay19 x8)) i)
      = dot (rowMax (chanMax (blockSlab x0))) (col x8) :=
    Finset.sum_congr rfl fun i _ =>
      (prodH1_apply (k0_pay13 (F := Ideal) MX) (k0_pay19 (F := Ideal) x8) i).trans (by rw [e_rmax, e19])
  refine (gateRow_apply _ _ _ _ _ _ _ _ p).trans ?_
  rw [h111, h114, h115, e20, hW (pixCol p)]
  rfl

/-! ## The four stores -/

/-- A stored piece: the chunk times the gate row (the piece whose chunk is loaded last). -/
theorem piece2_apply (S : FVec Ideal S1x4096 .f32) (v : Vec Ideal S1x64x4096 .f32) (r : Fin 64) (p : Fin 4096) :
    k0_pay2 (F := Ideal) S v (ix3 (0 : Fin 1) r p) = v (ix3 (0 : Fin 1) r p) * S (ix2 (0 : Fin 1) p) := by
  unfold k0_pay2
  refine (shapeCast_ab_1ab_apply _ _ (0 : Fin 1) r p).trans ?_
  simp only [mulf_apply]
  rw [shapeCast_1ab_ab_apply, broadcastTo_1b_ab_apply]

/-- A stored piece: the chunk, already viewed as a matrix, times the gate row. -/
theorem piece1_apply (S : FVec Ideal S1x4096 .f32) (v : FVec Ideal S64x4096 .f32) (r : Fin 64) (p : Fin 4096) :
    k0_pay1 (F := Ideal) S v (ix3 (0 : Fin 1) r p) = v (ix2 r p) * S (ix2 (0 : Fin 1) p) := by
  unfold k0_pay1
  refine (shapeCast_ab_1ab_apply _ _ (0 : Fin 1) r p).trans ?_
  simp only [mulf_apply]
  rw [broadcastTo_1b_ab_apply]

/-- The chunk viewed as a matrix. -/
theorem chunkmat_apply (v : Vec Ideal S1x64x4096 .f32) (r : Fin 64) (p : Fin 4096) :
    k0_pay29 (F := Ideal) v (ix2 r p) = v (ix3 (0 : Fin 1) r p) := shapeCast_1ab_ab_apply v _ r p

/-- A stored piece whose payload recomputes the gate row from its parts. -/
theorem piece27_apply (a b : FVec Ideal S1x64 .f32) (c d e : Vec Ideal S1x64 .f32) (f : FVec Ideal S1x64 .f32)
    (g : FVec Ideal S1x1 .f32) (h : FVec Ideal S1x64 .f32) (v : Vec Ideal S1x64x4096 .f32) (r : Fin 64) (p : Fin 4096) :
    k0_pay27 (F := Ideal) a b c d e f g h v (ix3 (0 : Fin 1) r p)
      = v (ix3 (0 : Fin 1) r p) * k0_pay26 (F := Ideal) a b c d e f g h (ix2 (0 : Fin 1) p) := by
  unfold k0_pay27
  refine (shapeCast_ab_1ab_apply _ _ (0 : Fin 1) r p).trans ?_
  simp only [mulf_apply]
  rw [shapeCast_1ab_ab_apply, broadcastTo_1b_ab_apply]

/-- The same for the second piece. -/
theorem piece28_apply (a b : FVec Ideal S1x64 .f32) (c d e : Vec Ideal S1x64 .f32) (f : FVec Ideal S1x64 .f32)
    (g : FVec Ideal S1x1 .f32) (h : FVec Ideal S1x64 .f32) (v : Vec Ideal S1x64x4096 .f32) (r : Fin 64) (p : Fin 4096) :
    k0_pay28 (F := Ideal) a b c d e f g h v (ix3 (0 : Fin 1) r p)
      = v (ix3 (0 : Fin 1) r p) * k0_pay26 (F := Ideal) a b c d e f g h (ix2 (0 : Fin 1) p) := by
  unfold k0_pay28
  refine (shapeCast_ab_1ab_apply _ _ (0 : Fin 1) r p).trans ?_
  simp only [mulf_apply]
  rw [shapeCast_1ab_ab_apply, broadcastTo_1b_ab_apply]

/-- Where the store rectangles put their entries. -/
theorem emb_chunk0 (r : Fin 64) (p : Fin 4096) : r0_0.emb (ix3 (0 : Fin 1) r p) = ix3 (0 : Fin 1) (chan 0 r) p :=
  funext fun a => Fin.ext (by
    match a with
    | ⟨0, _⟩ => rfl
    | ⟨1, _⟩ => show 0 + 1 * r.val = 64 * 0 + r.val; omega
    | ⟨2, _⟩ => show 0 + 1 * p.val = p.val; omega)
theorem emb_chunk1 (r : Fin 64) (p : Fin 4096) : r0_1.emb (ix3 (0 : Fin 1) r p) = ix3 (0 : Fin 1) (chan 1 r) p :=
  funext fun a => Fin.ext (by
    match a with
    | ⟨0, _⟩ => rfl
    | ⟨1, _⟩ => show 64 + 1 * r.val = 64 * 1 + r.val; omega
    | ⟨2, _⟩ => show 0 + 1 * p.val = p.val; omega)
theorem emb_chunk2 (r : Fin 64) (p : Fin 4096) : r0_2.emb (ix3 (0 : Fin 1) r p) = ix3 (0 : Fin 1) (chan 2 r) p :=
  funext fun a => Fin.ext (by
    match a with
    | ⟨0, _⟩ => rfl
    | ⟨1, _⟩ => show 128 + 1 * r.val = 64 * 2 + r.val; omega
    | ⟨2, _⟩ => show 0 + 1 * p.val = p.val; omega)
theorem emb_chunk3 (r : Fin 64) (p : Fin 4096) : r0_3.emb (ix3 (0 : Fin 1) r p) = ix3 (0 : Fin 1) (chan 3 r) p :=
  funext fun a => Fin.ext (by
    match a with
    | ⟨0, _⟩ => rfl
    | ⟨1, _⟩ => show 192 + 1 * r.val = 64 * 3 + r.val; omega
    | ⟨2, _⟩ => show 0 + 1 * p.val = p.val; omega)

/-- The block as one function of its index: the input there times the gate row at the index's pixel. -/
def blockFn (x0 : Vec Ideal S1x256x4096 .f32) (x1 x2 x3 : Vec Ideal S64x1 .f32) (x4 x5 x6 : Vec Ideal S1x64 .f32)
    (x7 x8 x9 : Vec Ideal S64x1 .f32) (x10 x11 x12 : Vec Ideal S1x64 .f32) : S1x256x4096.Idx → EReal :=
  fun y => x0 y * gateRow x0 x1 x2 x3 x4 x5 x6 x7 x8 x9 x10 x11 x12 (ix2 (0 : Fin 1) (y 2))

/-- The four stores leave `blockFn`. -/
theorem out_eq_blockFn (x0 : Vec Ideal S1x256x4096 .f32) (x1 x2 x3 : Vec Ideal S64x1 .f32) (x4 x5 x6 : Vec Ideal S1x64 .f32)
    (x7 x8 x9 : Vec Ideal S64x1 .f32) (x10 x11 x12 : Vec Ideal S1x64 .f32) (y : S1x256x4096.Idx) :
    out0_13 (F := Ideal) x0 x1 x2 x3 x4 x5 x6 x7 x8 x9 x10 x11 x12 y = blockFn x0 x1 x2 x3 x4 x5 x6 x7 x8 x9 x10 x11 x12 y := by
  unfold out0_13
  refine View.canon_apply_of_pieces (Val := Elt Ideal) (blockFn x0 x1 x2 x3 x4 x5 x6 x7 x8 x9 x10 x11 x12) _ ?_ y (cover0_13 _ _ _ _ y)
  intro pc hpc x
  simp only [List.mem_cons, List.not_mem_nil, or_false] at hpc
  rcases hpc with rfl | rfl | rfl | rfl
  · obtain ⟨u, r, p, rfl⟩ : ∃ (u : Fin 1) (r : Fin 64) (p : Fin 4096), x = ix3 u r p := ⟨x 0, x 1, x 2, eq_ix3 x⟩
    obtain rfl : u = 0 := Subsingleton.elim _ _
    show k0_pay2 (F := Ideal) _ (View.ld x0 r0_3) (ix3 (0 : Fin 1) r p) = blockFn x0 x1 x2 x3 x4 x5 x6 x7 x8 x9 x10 x11 x12 (r0_3.emb (ix3 (0 : Fin 1) r p))
    rw [emb_chunk3, piece2_apply, ld_chunk3]
    rfl
  · obtain ⟨u, r, p, rfl⟩ : ∃ (u : Fin 1) (r : Fin 64) (p : Fin 4096), x = ix3 u r p := ⟨x 0, x 1, x 2, eq_ix3 x⟩
    obtain rfl : u = 0 := Subsingleton.elim _ _
    show k0_pay1 (F := Ideal) _ (k0_pay29 (View.ld x0 r0_2)) (ix3 (0 : Fin 1) r p) = blockFn x0 x1 x2 x3 x4 x5 x6 x7 x8 x9 x10 x11 x12 (r0_2.emb (ix3 (0 : Fin 1) r p))
    rw [emb_chunk2, piece1_apply, chunkmat_apply, ld_chunk2]
    rfl
  · obtain ⟨u, r, p, rfl⟩ : ∃ (u : Fin 1) (r : Fin 64) (p : Fin 4096), x = ix3 u r p := ⟨x 0, x 1, x 2, eq_ix3 x⟩
    obtain rfl : u = 0 := Subsingleton.elim _ _
    show k0_pay28 (F := Ideal) _ _ _ _ _ _ _ _ (View.ld x0 r0_1) (ix3 (0 : Fin 1) r p) = blockFn x0 x1 x2 x3 x4 x5 x6 x7 x8 x9 x10 x11 x12 (r0_1.emb (ix3 (0 : Fin 1) r p))
    rw [emb_chunk1, piece28_apply, ld_chunk1]
    rfl
  · obtain ⟨u, r, p, rfl⟩ : ∃ (u : Fin 1) (r : Fin 64) (p : Fin 4096), x = ix3 u r p := ⟨x 0, x 1, x 2, eq_ix3 x⟩
    obtain rfl : u = 0 := Subsingleton.elim _ _
    show k0_pay27 (F := Ideal) _ _ _ _ _ _ _ _ (View.ld x0 r0_0) (ix3 (0 : Fin 1) r p) = blockFn x0 x1 x2 x3 x4 x5 x6 x7 x8 x9 x10 x11 x12 (r0_0.emb (ix3 (0 : Fin 1) r p))
    rw [emb_chunk0, piece27_apply, ld_chunk0]
    rfl

/-- The block law. -/
theorem blockLaw : BlockLaw := by
  intro x0 x1 x2 x3 x4 x5 x6 x7 x8 x9 x10 x11 x12 c p
  rw [out_eq_blockFn]
  show x0 (ix3 (0 : Fin 1) c p) * gateRow x0 x1 x2 x3 x4 x5 x6 x7 x8 x9 x10 x11 x12 (ix2 (0 : Fin 1) p) = _
  rw [gateRow_eq]

end Cert.SpatialGate

end
-- ==== Proof.KernelRun.lean ====
/-
  The kernel program's run, read down to the specification.

  The program flattens the 64 × 64 pixels of its first argument to 4096 positions, runs one pipelined region over the
  32 batch elements, and unflattens the region's result. At point t the region stages batch element t of the flattened
  input (one block of 256 channels by 4096 positions) and the twelve weight arrays whole, and writes its output block
  back to batch element t of the flattened result. Given the block law (what the body leaves in its output block is
  the input block times the gate of the block's slab), this module shows:

  * each staged block read as the argument arrays (the input block is batch element t with position p standing for
    pixel (p / 64, p % 64); a weight window's block is its whole array);
  * so what point t writes back is block t of ONE function of the argument arrays, the specification's result with
    its pixels flattened;
  * the 32 blocks cover the flattened result array, so after the region it is that function;
  * unflattening it (position 64 h + w is pixel (h, w)) gives the specification's result array;
  * and the run: the result buffer at the specification's array, every argument unchanged.
-/
import proofs.«117305_j1580547973359_2_alg».proof.Proof.Interface
import Idealize.ShloMosaic.Lib.Pipeline.Value
import Idealize.ShloMosaic.Lib.ValueIdx
import Idealize.ShloMosaic.Lib.StableHlo.Run

noncomputable section

namespace Cert.SpatialGate

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-! ## The two reshapes, read at an index -/

/-- Flattening the 64 × 64 pixels: position p of 4096 is pixel (p / 64, p % 64). -/
theorem flatten_apply (x : S32x256x64x64.Idx → EReal) (h : S32x256x64x64.ShapeCasts S32x256x4096)
    (b : Fin 32) (ch : Fin 256) (p : Fin 4096) :
    shapeCast S32x256x4096 x h (ix3 b ch p) = x (ix4 b ch (pixRow p) (pixCol p)) := by
  refine shapeCast_apply x h _ _ ?_
  rw [Shape.rowMajor_val_four, Shape.rowMajor_val_three]
  show ((b.val * 256 + ch.val) * 64 + p.val / 64) * 64 + p.val % 64 = (b.val * 256 + ch.val) * 4096 + p.val
  omega

/-- Unflattening: pixel (r, w) is position 64 r + w. -/
theorem unflatten_apply (y : S32x256x4096.Idx → EReal) (h : S32x256x4096.ShapeCasts S32x256x64x64)
    (b : Fin 32) (ch : Fin 256) (r w : Fin 64) :
    shapeCast S32x256x64x64 y h (ix4 b ch r w) = y (ix3 b ch (pix r w)) := by
  refine shapeCast_apply y h _ _ ?_
  rw [Shape.rowMajor_val_four, Shape.rowMajor_val_three]
  show (b.val * 256 + ch.val) * 4096 + (64 * r.val + w.val) = ((b.val * 256 + ch.val) * 64 + r.val) * 64 + w.val
  omega

/-! ## The arrays as the region finds them -/

/-- The flattened input the region stages is the reshape of the first argument. -/
theorem V_main_v0 (c : Dev nD) :
    (V m c main_v0 : S32x256x4096.Idx → EReal)
      = shapeCast S32x256x4096 (m ((c : Thread nD τ).loc main_arg0) : S32x256x64x64.Idx → EReal) shapeCasts_S32x256x64x64_S32x256x4096 := by
  show StableHlo.after hostOps0 (fun b => m (c, b)) (Proc.devRef .tc main_v0) = _
  after_results
  rfl

/-- The block index maps over the grid: the input and the output move along the batch axis with the point; every
    weight window stays at block (0, 0). -/
theorem idx_facts : ∀ t : Fin cfg0.N,
    win0_0.index t (0 : Fin 3) = t.val ∧ win0_0.index t (1 : Fin 3) = 0 ∧ win0_0.index t (2 : Fin 3) = 0
    ∧ win0_13.index t (0 : Fin 3) = t.val ∧ win0_13.index t (1 : Fin 3) = 0 ∧ win0_13.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0
    ∧ win0_12.index t (0 : Fin 2) = 0 ∧ win0_12.index t (1 : Fin 2) = 0 :=
  (by decide +kernel : ∀ t : Fin grid0.N, _)

/-- The grid's points are the 32 batch elements. -/
theorem point_lt (t : Fin cfg0.N) : t.val < 32 := by
  have h : cfg0.N = 32 := N_0
  have := t.isLt
  omega

/-- The input block at point t is batch element t of the first argument, its pixels flattened. -/
theorem iblk0_apply (c : Dev nD) (t : Fin cfg0.N) (ch : Fin 256) (p : Fin 4096) :
    (iblk m c 0 t : Vec Ideal S1x256x4096 .f32) (ix3 (0 : Fin 1) ch p)
      = (m ((c : Thread nD τ).loc main_arg0) : S32x256x64x64.Idx → EReal) (ix4 (⟨t.val, point_lt t⟩ : Fin 32) ch (pixRow p) (pixCol p)) := by
  obtain ⟨e0, e1, e2, -⟩ := idx_facts t
  unfold iblk
  rw [View.read_apply]
  show V m c main_v0 _ = _
  rw [V_main_v0]
  refine Eq.trans (congrArg _ ?_) (flatten_apply _ _ (⟨t.val, point_lt t⟩ : Fin 32) ch p)
  funext a
  apply Fin.ext
  match a with
  | ⟨0, _⟩ => show win0_0.index t (0 : Fin 3) * 1 + 1 * 0 = t.val; omega
  | ⟨1, _⟩ => show win0_0.index t (1 : Fin 3) * 256 + 1 * ch.val = ch.val; omega
  | ⟨2, _⟩ => show win0_0.index t (2 : Fin 3) * 4096 + 1 * p.val = p.val; omega

/-! ## The weight windows: each stages its whole array at every point -/

/-- Window 1's block at any point is the whole second argument. -/
theorem iblk1_eq (c : Dev nD) (t : Fin cfg0.N) :
    (iblk m c 1 t : Vec Ideal S64x1 .f32) = (m ((c : Thread nD τ).loc main_arg1) : S64x1.Idx → EReal) := by
  obtain ⟨-, -, -, -, -, -, e0, e1, -⟩ := idx_facts t
  funext y
  unfold iblk
  rw [View.read_apply]
  show V m c main_arg1 _ = _
  rw [V_main_arg1]
  refine congrArg _ ?_
  funext a
  apply Fin.ext
  match a with
  | ⟨0, _⟩ => show win0_1.index t (0 : Fin 2) * 64 + 1 * (y 0).val = (y 0).val; omega
  | ⟨1, _⟩ => show win0_1.index t (1 : Fin 2) * 1 + 1 * (y 1).val = (y 1).val; omega

/-- Window 2's block at any point is the whole third argument. -/
theorem iblk2_eq (c : Dev nD) (t : Fin cfg0.N) :
    (iblk m c 2 t : Vec Ideal S64x1 .f32) = (m ((c : Thread nD τ).loc main_arg2) : S64x1.Idx → EReal) := by
  obtain ⟨-, -, -, -, -, -, -, -, e0, e1, -⟩ := idx_facts t
  funext y
  unfold iblk
  rw [View.read_apply]
  show V m c main_arg2 _ = _
  rw [V_main_arg2]
  refine congrArg _ ?_
  funext a
  apply Fin.ext
  match a with
  | ⟨0, _⟩ => show win0_2.index t (0 : Fin 2) * 64 + 1 * (y 0).val = (y 0).val; omega
  | ⟨1, _⟩ => show win0_2.index t (1 : Fin 2) * 1 + 1 * (y 1).val = (y 1).val; omega

/-- Window 3's block at any point is the whole fourth argument. -/
theorem iblk3_eq (c : Dev nD) (t : Fin cfg0.N) :
    (iblk m c 3 t : Vec Ideal S64x1 .f32) = (m ((c : Thread nD τ).loc main_arg3) : S64x1.Idx → EReal) := by
  obtain ⟨-, -, -, -, -, -, -, -, -, -, e0, e1, -⟩ := idx_facts t
  funext y
  unfold iblk
  rw [View.read_apply]
  show V m c main_arg3 _ = _
  rw [V_main_arg3]
  refine congrArg _ ?_
  funext a
  apply Fin.ext
  match a with
  | ⟨0, _⟩ => show win0_3.index t (0 : Fin 2) * 64 + 1 * (y 0).val = (y 0).val; omega
  | ⟨1, _⟩ => show win0_3.index t (1 : Fin 2) * 1 + 1 * (y 1).val = (y 1).val; omega

/-- Window 4's block at any point is the whole fifth argument. -/
theorem iblk4_eq (c : Dev nD) (t : Fin cfg0.N) :
    (iblk m c 4 t : Vec Ideal S1x64 .f32) = (m ((c : Thread nD τ).loc main_arg4) : S1x64.Idx → EReal) := by
  obtain ⟨-, -, -, -, -, -, -, -, -, -, -, -, e0, e1, -⟩ := idx_facts t
  funext y
  unfold iblk
  rw [View.read_apply]
  show V m c main_arg4 _ = _
  rw [V_main_arg4]
  refine congrArg _ ?_
  funext a
  apply Fin.ext
  match a with
  | ⟨0, _⟩ => show win0_4.index t (0 : Fin 2) * 1 + 1 * (y 0).val = (y 0).val; omega
  | ⟨1, _⟩ => show win0_4.index t (1 : Fin 2) * 64 + 1 * (y 1).val = (y 1).val; omega

/-- Window 5's block at any point is the whole sixth argument. -/
theorem iblk5_eq (c : Dev nD) (t : Fin cfg0.N) :
    (iblk m c 5 t : Vec Ideal S1x64 .f32) = (m ((c : Thread nD τ).loc main_arg5) : S1x64.Idx → EReal) := by
  obtain ⟨-, -, -, -, -, -, -, -, -, -, -, -, -, -, e0, e1, -⟩ := idx_facts t
  funext y
  unfold iblk
  rw [View.read_apply]
  show V m c main_arg5 _ = _
  rw [V_main_arg5]
  refine congrArg _ ?_
  funext a
  apply Fin.ext
  match a with
  | ⟨0, _⟩ => show win0_5.index t (0 : Fin 2) * 1 + 1 * (y 0).val = (y 0).val; omega
  | ⟨1, _⟩ => show win0_5.index t (1 : Fin 2) * 64 + 1 * (y 1).val = (y 1).val; omega

/-- Window 6's block at any point is the whole seventh argument. -/
theorem iblk6_eq (c : Dev nD) (t : Fin cfg0.N) :
    (iblk m c 6 t : Vec Ideal S1x64 .f32) = (m ((c : Thread nD τ).loc main_arg6) : S1x64.Idx → EReal) := by
  obtain ⟨-, -, -, -, -, -, -, -, -, -, -, -, -, -, -, -, e0, e1, -⟩ := idx_facts t
  funext y
  unfold iblk
  rw [View.read_apply]
  show V m c main_arg6 _ = _
  rw [V_main_arg6]
  refine congrArg _ ?_
  funext a
  apply Fin.ext
  match a with
  | ⟨0, _⟩ => show win0_6.index t (0 : Fin 2) * 1 + 1 * (y 0).val = (y 0).val; omega
  | ⟨1, _⟩ => show win0_6.index t (1 : Fin 2) * 64 + 1 * (y 1).val = (y 1).val; omega

/-- Window 7's block at any point is the whole eighth argument. -/
theorem iblk7_eq (c : Dev nD) (t : Fin cfg0.N) :
    (iblk m c 7 t : Vec Ideal S64x1 .f32) = (m ((c : Thread nD τ).loc main_arg7) : S64x1.Idx → EReal) := by
  obtain ⟨-, -, -, -, -, -, -, -, -, -, -, -, -, -, -, -, -, -, e0, e1, -⟩ := idx_facts t
  funext y
  unfold iblk
  rw [View.read_apply]
  show V m c main_arg7 _ = _
  rw [V_main_arg7]
  refine congrArg _ ?_
  funext a
  apply Fin.ext
  match a with
  | ⟨0, _⟩ => show win0_7.index t (0 : Fin 2) * 64 + 1 * (y 0).val = (y 0).val; omega
  | ⟨1, _⟩ => show win0_7.index t (1 : Fin 2) * 1 + 1 * (y 1).val = (y 1).val; omega

/-- Window 8's block at any point is the whole ninth argument. -/
theorem iblk8_eq (c : Dev nD) (t : Fin cfg0.N) :
    (iblk m c 8 t : Vec Ideal S64x1 .f32) = (m ((c : Thread nD τ).loc main_arg8) : S64x1.Idx → EReal) := by
  obtain ⟨-, -, -, -, -, -, -, -, -, -, -, -, -, -, -, -, -, -, -, -, e0, e1, -⟩ := idx_facts t
  funext y
  unfold iblk
  rw [View.read_apply]
  show V m c main_arg8 _ = _
  rw [V_main_arg8]
  refine congrArg _ ?_
  funext a
  apply Fin.ext
  match a with
  | ⟨0, _⟩ => show win0_8.index t (0 : Fin 2) * 64 + 1 * (y 0).val = (y 0).val; omega
  | ⟨1, _⟩ => show win0_8.index t (1 : Fin 2) * 1 + 1 * (y 1).val = (y 1).val; omega

/-- Window 9's block at any point is the whole tenth argument. -/
theorem iblk9_eq (c : Dev nD) (t : Fin cfg0.N) :
    (iblk m c 9 t : Vec Ideal S64x1 .f32) = (m ((c : Thread nD τ).loc main_arg9) : S64x1.Idx → EReal) := by
  obtain ⟨-, -, -, -, -, -, -, -, -, -, -, -, -, -, -, -, -, -, -, -, -, -, e0, e1, -⟩ := idx_facts t
  funext y
  unfold iblk
  rw [View.read_apply]
  show V m c main_arg9 _ = _
  rw [V_main_arg9]
  refine congrArg _ ?_
  funext a
  apply Fin.ext
  match a with
  | ⟨0, _⟩ => show win0_9.index t (0 : Fin 2) * 64 + 1 * (y 0).val = (y 0).val; omega
  | ⟨1, _⟩ => show win0_9.index t (1 : Fin 2) * 1 + 1 * (y 1).val = (y 1).val; omega

/-- Window 10's block at any point is the whole eleventh argument. -/
theorem iblk10_eq (c : Dev nD) (t : Fin cfg0.N) :
    (iblk m c 10 t : Vec Ideal S1x64 .f32) = (m ((c : Thread nD τ).loc main_arg10) : S1x64.Idx → EReal) := by
  obtain ⟨-, -, -, -, -, -, -, -, -, -, -, -, -, -, -, -, -, -, -, -, -, -, -, -, e0, e1, -⟩ := idx_facts t
  funext y
  unfold iblk
  rw [View.read_apply]
  show V m c main_arg10 _ = _
  rw [V_main_arg10]
  refine congrArg _ ?_
  funext a
  apply Fin.ext
  match a with
  | ⟨0, _⟩ => show win0_10.index t (0 : Fin 2) * 1 + 1 * (y 0).val = (y 0).val; omega
  | ⟨1, _⟩ => show win0_10.index t (1 : Fin 2) * 64 + 1 * (y 1).val = (y 1).val; omega

/-- Window 11's block at any point is the whole twelfth argument. -/
theorem iblk11_eq (c : Dev nD) (t : Fin cfg0.N) :
    (iblk m c 11 t : Vec Ideal S1x64 .f32) = (m ((c : Thread nD τ).loc main_arg11) : S1x64.Idx → EReal) := by
  obtain ⟨-, -, -, -, -, -, -, -, -, -, -, -, -, -, -, -, -, -, -, -, -, -, -, -, -, -, e0, e1, -⟩ := idx_facts t
  funext y
  unfold iblk
  rw [View.read_apply]
  show V m c main_arg11 _ = _
  rw [V_main_arg11]
  refine congrArg _ ?_
  funext a
  apply Fin.ext
  match a with
  | ⟨0, _⟩ => show win0_11.index t (0 : Fin 2) * 1 + 1 * (y 0).val = (y 0).val; omega
  | ⟨1, _⟩ => show win0_11.index t (1 : Fin 2) * 64 + 1 * (y 1).val = (y 1).val; omega

/-- Window 12's block at any point is the whole thirteenth argument. -/
theorem iblk12_eq (c : Dev nD) (t : Fin cfg0.N) :
    (iblk m c 12 t : Vec Ideal S1x64 .f32) = (m ((c : Thread nD τ).loc main_arg12) : S1x64.Idx → EReal) := by
  obtain ⟨-, -, -, -, -, -, -, -, -, -, -, -, -, -, -, -, -, -, -, -, -, -, -, -, -, -, -, -, e0, e1⟩ := idx_facts t
  funext y
  unfold iblk
  rw [View.read_apply]
  show V m c main_arg12 _ = _
  rw [V_main_arg12]
  refine congrArg _ ?_
  funext a
  apply Fin.ext
  match a with
  | ⟨0, _⟩ => show win0_12.index t (0 : Fin 2) * 1 + 1 * (y 0).val = (y 0).val; omega
  | ⟨1, _⟩ => show win0_12.index t (1 : Fin 2) * 64 + 1 * (y 1).val = (y 1).val; omega

/-! ## One point's write-back -/

/-- The block law read against the whole arrays: when the input block is batch element b of X0 with its pixels
    flattened, the body's output block at channel ch and flattened pixel p is the specification's result there. -/
theorem block_out (hlaw : BlockLaw) (x0 : Vec Ideal S1x256x4096 .f32)
    (x1 x2 x3 : Vec Ideal S64x1 .f32) (x4 x5 x6 : Vec Ideal S1x64 .f32)
    (x7 x8 x9 : Vec Ideal S64x1 .f32) (x10 x11 x12 : Vec Ideal S1x64 .f32)
    (X0 : S32x256x64x64.Idx → EReal) (b : Fin 32)
    (h0 : ∀ (ch : Fin 256) (p : Fin 4096), x0 (ix3 (0 : Fin 1) ch p) = X0 (ix4 b ch (pixRow p) (pixCol p)))
    (ch : Fin 256) (p : Fin 4096) :
    out0_13 (F := Ideal) x0 x1 x2 x3 x4 x5 x6 x7 x8 x9 x10 x11 x12 (ix3 (0 : Fin 1) ch p)
      = out X0 x1 x2 x3 x4 x5 x6 x7 x8 x9 x10 x11 x12 b ch (pixRow p) (pixCol p) := by
  have hs : blockSlab x0 = slab X0 b := by
    funext c' r w
    show x0 (ix3 (0 : Fin 1) c' (pix r w)) = X0 (ix4 b c' r w)
    rw [h0, pixRow_pix, pixCol_pix]
  rw [hlaw, h0, hs]
  rfl

/-- The flattened result array as one function of the argument arrays. -/
def G1 (c : Dev nD) : S32x256x4096.Idx → EReal := fun i =>
  out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (i 0) (i 1) (pixRow (i 2)) (pixCol (i 2))

theorem G1_apply (c : Dev nD) (b : Fin 32) (ch : Fin 256) (p : Fin 4096) :
    G1 m c (ix3 b ch p)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8))
          (m ((c : Thread nD τ).loc main_arg9)) (m ((c : Thread nD τ).loc main_arg10)) (m ((c : Thread nD τ).loc main_arg11))
          (m ((c : Thread nD τ).loc main_arg12)) b ch (pixRow p) (pixCol p) := rfl

/-- What point t writes back is block t of the flattened result. -/
theorem flushed_eq (hlaw : BlockLaw) (c : Dev nD) (t : Fin cfg0.N) :
    (dats m 0 c).flushed 13 t = ((cfg0.win 13).blk t).view.read (Elt Ideal) (G1 m c) := by
  obtain ⟨-, -, -, e0, e1, e2, -⟩ := idx_facts t
  show (cfg0.win 13).cut (grid0.coords t) ((dats m 0 c).after 13 t) = _
  rw [after0_13]
  funext y
  rw [View.read_apply]
  have hy0 : (y 0).val < 1 := (y 0).isLt
  have hy1 : (y 1).val < 256 := (y 1).isLt
  have hy2 : (y 2).val < 4096 := (y 2).isLt
  have hin : (cfg0.win 13).xinj (grid0.coords t) y = (ix3 (0 : Fin 1) (⟨(y 1).val, hy1⟩ : Fin 256) (⟨(y 2).val, hy2⟩ : Fin 4096) : S1x256x4096.Idx) := by
    funext a
    apply Fin.ext
    match a with
    | ⟨0, _⟩ => show (y 0).val = 0; omega
    | ⟨1, _⟩ => rfl
    | ⟨2, _⟩ => rfl
  have hemb : ((cfg0.win 13).blk t).view.emb y = (ix3 (⟨t.val, point_lt t⟩ : Fin 32) (⟨(y 1).val, hy1⟩ : Fin 256) (⟨(y 2).val, hy2⟩ : Fin 4096) : S32x256x4096.Idx) := by
    funext a
    apply Fin.ext
    match a with
    | ⟨0, _⟩ => show win0_13.index t (0 : Fin 3) * 1 + 1 * (y 0).val = t.val; omega
    | ⟨1, _⟩ => show win0_13.index t (1 : Fin 3) * 256 + 1 * (y 1).val = (y 1).val; omega
    | ⟨2, _⟩ => show win0_13.index t (2 : Fin 3) * 4096 + 1 * (y 2).val = (y 2).val; omega
  show out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) ((cfg0.win 13).xinj (grid0.coords t) y) = _
  rw [hin, hemb, G1_apply]
  refine (block_out hlaw (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)
    (m ((c : Thread nD τ).loc main_arg0)) (⟨t.val, point_lt t⟩ : Fin 32) (fun ch p => iblk0_apply m c t ch p) _ _).trans ?_
  rw [iblk1_eq m c t, iblk2_eq m c t, iblk3_eq m c t, iblk4_eq m c t, iblk5_eq m c t, iblk6_eq m c t, iblk7_eq m c t,
    iblk8_eq m c t, iblk9_eq m c t, iblk10_eq m c t, iblk11_eq m c t, iblk12_eq m c t]
  exact (cast_eq _ _).symm

/-! ## From the blocks to the array -/

/-- An index of the flattened result is in point t's block iff each coordinate is in the block's range on its axis. -/
theorem mem_blk (t : Fin cfg0.N) (i : S32x256x4096.Idx) :
    i ∈ ((cfg0.win 13).blk t).view.set ↔ ∀ a : Fin 3, win0_13.index t a * S1x256x4096.size a ≤ (i a).val ∧ (i a).val < win0_13.index t a * S1x256x4096.size a + S1x256x4096.size a := by
  show i ∈ ((View.whole main_v1).slice (win0_13.rect t)).set ↔ _
  rw [View.set_slice_whole, Rect.mem_set_unit]
  exact Iff.rfl

/-- Every index of the flattened result is in the block of the point that is its batch coordinate. -/
theorem cover (i : S32x256x4096.Idx) :
    ∃ t : Fin cfg0.N, (cfg0.win 13).flush t = true ∧ i ∈ ((cfg0.win 13).blk t).view.set := by
  have hi0 : (i 0).val < 32 := (i 0).isLt
  have hi1 : (i 1).val < 256 := (i 1).isLt
  have hi2 : (i 2).val < 4096 := (i 2).isLt
  have hN : cfg0.N = 32 := N_0
  have hlt : (i 0).val < cfg0.N := by rw [hN]; exact hi0
  obtain ⟨-, -, -, e0, e1, e2, -⟩ := idx_facts ⟨(i 0).val, hlt⟩
  refine ⟨⟨(i 0).val, hlt⟩, flush0_13 _, ?_⟩
  rw [mem_blk]
  intro a
  match a with
  | ⟨0, _⟩ =>
    show win0_13.index ⟨(i 0).val, hlt⟩ (0 : Fin 3) * 1 ≤ (i 0).val ∧ (i 0).val < win0_13.index ⟨(i 0).val, hlt⟩ (0 : Fin 3) * 1 + 1
    rw [e0]; show (i 0).val * 1 ≤ (i 0).val ∧ (i 0).val < (i 0).val * 1 + 1; omega
  | ⟨1, _⟩ =>
    show win0_13.index ⟨(i 0).val, hlt⟩ (1 : Fin 3) * 256 ≤ (i 1).val ∧ (i 1).val < win0_13.index ⟨(i 0).val, hlt⟩ (1 : Fin 3) * 256 + 256
    rw [e1]; omega
  | ⟨2, _⟩ =>
    show win0_13.index ⟨(i 0).val, hlt⟩ (2 : Fin 3) * 4096 ≤ (i 2).val ∧ (i 2).val < win0_13.index ⟨(i 0).val, hlt⟩ (2 : Fin 3) * 4096 + 4096
    rw [e2]; omega

/-- The flattened result array after the run. -/
theorem final (hlaw : BlockLaw) (c : Dev nD) : (dats m 0 c).arrAt 13 cfg0.N = G1 m c :=
  (dats m 0 c).arrAt_eq_of_cover 13 (G1 m c) (fun t _ => flushed_eq m hlaw c t) cover

/-! ## The reshape after the region -/

/-- The program's result: the flattened result array with its pixels unflattened is the specification's array. -/
theorem tail_eq (hlaw : BlockLaw) (c : Dev nD) :
    Pipeline.afterTail₀ cfgs (dats m) 0 (V0 m) [hostOps1] c main_v2
      = outArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) := by
  unfold Pipeline.afterTail₀
  show StableHlo.after hostOps1 _ (Proc.devRef .tc main_v2) = _
  after_results
  rw [(Pipeline.withArrays_arr spec0 launch0.win.arr_inj c _ _ 13).trans (final m hlaw c)]
  funext i
  obtain ⟨b, ch, r, w, rfl⟩ : ∃ (b : Fin 32) (ch : Fin 256) (r w : Fin 64), i = ix4 b ch r w :=
    ⟨i 0, i 1, i 2, i 3, eq_ix4 i⟩
  show shapeCast S32x256x64x64 (G1 m c) shapeCasts_S32x256x4096_S32x256x64x64 (ix4 b ch r w) = _
  rw [unflatten_apply, G1_apply, pixRow_pix, pixCol_pix]
  rfl

/-! ## The run -/

/-- The kernel program's run: the result array ends at the specification's array of the arguments, and the
    arguments end unchanged. The frame run's post gives the result buffer as the reshape after the region applied to
    what the region left, the first argument as a buffer no window stages, and the twelve weight arrays as staged
    inputs that are never written back. -/
theorem kernel_run (hlaw : Cert.SpatialGate.BlockLaw)
    (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
          r.2.mem ((c.tc : Thread Cert.KernelIdeal.nD Cert.KernelIdeal.τ).loc Cert.KernelIdeal.main_v2) = Cert.SpatialGate.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)) :=
  (θ_run defs _ _).mono (fun _ h c => ⟨((h c).2 main_v2 (Pipeline.mem_restRefs_of main_v2 (by decide) (by decide))).trans (tail_eq m hlaw c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      ((h c).1 12).trans (((dats m 0 c).arrAt_in 12 rfl _).trans ((A_eq m c 12).trans (V_main_arg12 m c)))⟩) (run_main m ρ)

end Cert.SpatialGate

end
-- ==== Proof.RefValue.lean ====
/-
  The reference program's result, stage by stage, is the function of Spec.lean.

  For batch element `b` with slab `X = slab x0 b`, the program first reduces the 256 channels at every pixel to
  their maximum and to their mean, then reduces each of the two 64 × 64 maps along its rows and along its columns.
  From the column pair (mean, maximum) and the weights 1 … 6 it forms the columns' branch, from the row pair and the
  weights 7 … 12 the rows' branch; their outer product goes through tanh, one is added, and the input is multiplied by
  the result at every channel.

  Each lemma below says that one stage of the program, read at explicit coordinates, is the corresponding function
  of Spec.lean: a maximum-reduction is the fold of `max` from the word of −∞ over the reduced axis, a sum-reduction is
  the zero word plus the finite sum, a mean is that sum divided by the splat word of the axis's length, an inner
  product is the sum of the products in the operands' order, and a broadcast reads its operand at the coordinates it
  keeps. The last theorem, `ref_eq`, composes them.
-/
import proofs.«117305_j1580547973359_2_alg».proof.Proof.Gen.ReferenceIdeal.Read
import proofs.«117305_j1580547973359_2_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.SpatialGate

open Cert.ReferenceIdeal Cert.ReferenceIdeal.Gen Cert.ReferenceIdeal.Read Idealize.ShloMosaic Idealize.ShloMosaic.ValueIdx

namespace Ref

/-- Two indices are equal when their coordinates are: one case per axis, each by computation. -/
macro "idx_eq1" : tactic => `(tactic| (funext a; match a with | ⟨0, _⟩ => rfl))
@[inherit_doc tacticIdx_eq1]
macro "idx_eq2" : tactic => `(tactic| (funext a; match a with | ⟨0, _⟩ => rfl | ⟨1, _⟩ => rfl))
@[inherit_doc tacticIdx_eq1]
macro "idx_eq3" : tactic => `(tactic| (funext a; match a with | ⟨0, _⟩ => rfl | ⟨1, _⟩ => rfl | ⟨2, _⟩ => rfl))
@[inherit_doc tacticIdx_eq1]
macro "idx_eq4" : tactic => `(tactic| (funext a; match a with | ⟨0, _⟩ => rfl | ⟨1, _⟩ => rfl | ⟨2, _⟩ => rfl | ⟨3, _⟩ => rfl))

section Stages
variable (x0 : (⟨S32x256x64x64, .f32⟩ : BufTy).Contents (Elt Ideal))

/-! ## Over the channels -/

/-- Stage 0: the maximum over the channels at pixel (h, w) of batch element b. -/
theorem v0_at (b : Fin 32) (h w : Fin 64) :
    val_main_v0 (F := Ideal) x0 (ix3 b h w) = chanMax (slab x0 b) h w := by
  unfold val_main_v0
  refine (Host.reduce_eq_fold_single (FloatOps.maximumf (F := Ideal) (φ := .f32)) x0 _ _ (by decide) _ (ix3 b h w)).trans ?_
  unfold chanMax maxOver
  refine congrArg (fun f => Finset.fold max negInf f Finset.univ) (funext fun c => ?_)
  exact congrArg x0 (by idx_eq4)

/-- Stage 1: the sum over the channels at a pixel (the zero word it starts from is the number 0). -/
theorem v1_at (b : Fin 32) (h w : Fin 64) :
    val_main_v1 (F := Ideal) x0 (ix3 b h w) = ∑ c : Fin 256, slab x0 b c h w := by
  rw [val_main_v1_apply, val_main_cst_0_apply, Ideal.ofBits_def, Ideal.ofBits_zero_f32, zero_add]
  exact Finset.sum_congr rfl fun c _ => congrArg x0 (by idx_eq4)

/-- Stage 3: the mean over the channels at a pixel, the sum divided by the splat word of 256. -/
theorem v3_at (b : Fin 32) (h w : Fin 64) :
    val_main_v3 (F := Ideal) x0 (ix3 b h w) = chanMean (slab x0 b) h w := by
  rw [val_main_v3_apply, Ideal.hostDivf_def, v1_at, val_main_v2_apply, val_main_cst_1_apply]
  rfl

/-! ## Over the rows of a column (axis 1 of the 32 × 64 × 64 maps) -/

/-- Stage 4: the maximum of column w of the channel-maximum map. -/
theorem v4_at (b : Fin 32) (w : Fin 64) :
    val_main_v4 (F := Ideal) x0 (ix2 b w) = colMax (chanMax (slab x0 b)) w := by
  unfold val_main_v4
  refine (Host.reduce_eq_fold_single (FloatOps.maximumf (F := Ideal) (φ := .f32)) (val_main_v0 (F := Ideal) x0) _ _
    (by decide) _ (ix2 b w)).trans ?_
  unfold colMax maxOver
  refine congrArg (fun f => Finset.fold max negInf f Finset.univ) (funext fun h => ?_)
  rw [Function.comp_apply]
  exact (congrArg (val_main_v0 (F := Ideal) x0) (by idx_eq3 : _ = ix3 b h w)).trans (v0_at x0 b h w)

/-- Stage 5: the sum of column w of the channel-mean map. -/
theorem v5_at (b : Fin 32) (w : Fin 64) :
    val_main_v5 (F := Ideal) x0 (ix2 b w) = ∑ h : Fin 64, chanMean (slab x0 b) h w := by
  rw [val_main_v5_apply, val_main_cst_3_apply, Ideal.ofBits_def, Ideal.ofBits_zero_f32, zero_add]
  exact Finset.sum_congr rfl fun h _ =>
    (congrArg (val_main_v3 (F := Ideal) x0) (by idx_eq3 : _ = ix3 b h w)).trans (v3_at x0 b h w)

/-- Stage 7: the mean of column w of the channel-mean map. -/
theorem v7_at (b : Fin 32) (w : Fin 64) :
    val_main_v7 (F := Ideal) x0 (ix2 b w) = colMean (chanMean (slab x0 b)) w := by
  rw [val_main_v7_apply, Ideal.hostDivf_def, v5_at, val_main_v6_apply, val_main_cst_4_apply]
  rfl

/-! ## Over the columns of a row (axis 2) -/

/-- Stage 8: the maximum of row h of the channel-maximum map. -/
theorem v8_at (b : Fin 32) (h : Fin 64) :
    val_main_v8 (F := Ideal) x0 (ix2 b h) = rowMax (chanMax (slab x0 b)) h := by
  unfold val_main_v8
  refine (Host.reduce_eq_fold_single (FloatOps.maximumf (F := Ideal) (φ := .f32)) (val_main_v0 (F := Ideal) x0) _ _
    (by decide) _ (ix2 b h)).trans ?_
  unfold rowMax maxOver
  refine congrArg (fun f => Finset.fold max negInf f Finset.univ) (funext fun w => ?_)
  rw [Function.comp_apply]
  exact (congrArg (val_main_v0 (F := Ideal) x0) (by idx_eq3 : _ = ix3 b h w)).trans (v0_at x0 b h w)

/-- Stage 9: the sum of row h of the channel-mean map. -/
theorem v9_at (b : Fin 32) (h : Fin 64) :
    val_main_v9 (F := Ideal) x0 (ix2 b h) = ∑ w : Fin 64, chanMean (slab x0 b) h w := by
  rw [val_main_v9_apply, val_main_cst_6_apply, Ideal.ofBits_def, Ideal.ofBits_zero_f32, zero_add]
  exact Finset.sum_congr rfl fun w _ =>
    (congrArg (val_main_v3 (F := Ideal) x0) (by idx_eq3 : _ = ix3 b h w)).trans (v3_at x0 b h w)

/-- Stage 11: the mean of row h of the channel-mean map. -/
theorem v11_at (b : Fin 32) (h : Fin 64) :
    val_main_v11 (F := Ideal) x0 (ix2 b h) = rowMean (chanMean (slab x0 b)) h := by
  rw [val_main_v11_apply, Ideal.hostDivf_def, v9_at, val_main_v10_apply, val_main_cst_7_apply]
  rfl

/-! ## The branch over the columns

Here `mean = colMean (chanMean X)` and `mx = colMax (chanMax X)` are read off stages 7 and 4; the weights are the
arguments 1 … 6. -/

section Columns
variable (x1 x2 x3 : (⟨S64x1, .f32⟩ : BufTy).Contents (Elt Ideal)) (x4 x5 x6 : (⟨S1x64, .f32⟩ : BufTy).Contents (Elt Ideal))

/-- Stage 12: the maximum of the mean vector. -/
theorem v12_at (b : Fin 32) :
    val_main_v12 (F := Ideal) x0 (ix1 b) = maxOver (colMean (chanMean (slab x0 b))) := by
  unfold val_main_v12
  refine (Host.reduce_eq_fold_single (FloatOps.maximumf (F := Ideal) (φ := .f32)) (val_main_v7 (F := Ideal) x0) _ _
    (by decide) _ (ix1 b)).trans ?_
  unfold maxOver
  refine congrArg (fun f => Finset.fold max negInf f Finset.univ) (funext fun k => ?_)
  rw [Function.comp_apply]
  exact (congrArg (val_main_v7 (F := Ideal) x0) (by idx_eq2 : _ = ix2 b k)).trans (v7_at x0 b k)

/-- Stage 14: the softmax's shift, the maximum of −∞ and the mean vector's maximum. -/
theorem v14_at (b : Fin 32) :
    val_main_v14 (F := Ideal) x0 (ix1 b) = shift (colMean (chanMean (slab x0 b))) := by
  rw [val_main_v14_apply, Ideal.maximumf_def, v12_at, val_main_v13_apply, val_main_cst_9_apply]
  rfl

/-- Stage 16: the shift, broadcast along the vector. -/
theorem v16_at (b : Fin 32) (k : Fin 64) :
    val_main_v16 (F := Ideal) x0 (ix2 b k) = shift (colMean (chanMean (slab x0 b))) := by
  rw [val_main_v16_apply, val_main_v15_apply]
  exact (congrArg (val_main_v14 (F := Ideal) x0) (by idx_eq1 : _ = ix1 b)).trans (v14_at x0 b)

/-- Stage 18: the exponential of a shifted entry. -/
theorem v18_at (b : Fin 32) (k : Fin 64) :
    val_main_v18 (F := Ideal) x0 (ix2 b k)
      = Ideal.exp (colMean (chanMean (slab x0 b)) k - shift (colMean (chanMean (slab x0 b)))) := by
  rw [val_main_v18_apply, Ideal.hostUnary_exp_def, val_main_v17_apply, Ideal.subf_def, v7_at, v16_at]

/-- Stage 19: the sum of those exponentials. -/
theorem v19_at (b : Fin 32) :
    val_main_v19 (F := Ideal) x0 (ix1 b)
      = ∑ j : Fin 64, Ideal.exp (colMean (chanMean (slab x0 b)) j - shift (colMean (chanMean (slab x0 b)))) := by
  rw [val_main_v19_apply, val_main_cst_10_apply, Ideal.ofBits_def, Ideal.ofBits_zero_f32, zero_add]
  exact Finset.sum_congr rfl fun j _ =>
    (congrArg (val_main_v18 (F := Ideal) x0) (by idx_eq2 : _ = ix2 b j)).trans (v18_at x0 b j)

/-- Stage 22: the softmax of the mean vector. -/
theorem v22_at (b : Fin 32) (k : Fin 64) :
    val_main_v22 (F := Ideal) x0 (ix2 b k) = softmax (colMean (chanMean (slab x0 b))) k := by
  rw [val_main_v22_apply, Ideal.hostDivf_def, v18_at, val_main_v21_apply, val_main_v20_apply]
  unfold softmax
  exact congrArg (Ideal.div _) ((congrArg (val_main_v19 (F := Ideal) x0) (by idx_eq1 : _ = ix1 b)).trans (v19_at x0 b))

/-- Stage 23: the inner product of the mean vector with the first weight column. -/
theorem v23_at (b : Fin 32) :
    val_main_v23 (F := Ideal) x0 x1 (ix2 b (0 : Fin 1)) = dot (colMean (chanMean (slab x0 b))) (col x1) := by
  rw [val_main_v23_apply]
  exact Finset.sum_congr rfl fun k _ => congrArg₂ (· * ·)
    ((congrArg (val_main_v7 (F := Ideal) x0) (by idx_eq2 : _ = ix2 b k)).trans (v7_at x0 b k))
    (congrArg x1 (by idx_eq2 : _ = ix2 k (0 : Fin 1)))

/-- Stage 24: the inner product of the maximum vector with the second weight column. -/
theorem v24_at (b : Fin 32) :
    val_main_v24 (F := Ideal) x0 x2 (ix2 b (0 : Fin 1)) = dot (colMax (chanMax (slab x0 b))) (col x2) := by
  rw [val_main_v24_apply]
  exact Finset.sum_congr rfl fun k _ => congrArg₂ (· * ·)
    ((congrArg (val_main_v4 (F := Ideal) x0) (by idx_eq2 : _ = ix2 b k)).trans (v4_at x0 b k))
    (congrArg x2 (by idx_eq2 : _ = ix2 k (0 : Fin 1)))

/-- Stage 29: the first tanh vector, over the mean's inner product. -/
theorem v29_at (b : Fin 32) (k : Fin 64) :
    val_main_v29 (F := Ideal) x0 x1 x4 (ix2 b k)
      = Ideal.tanh (dot (colMean (chanMean (slab x0 b))) (col x1) * softmax (colMean (chanMean (slab x0 b))) k + row x4 k) := by
  rw [val_main_v29_apply, Ideal.hostUnary_tanh_def, val_main_v28_apply, Ideal.addf_def, val_main_v26_apply,
    Ideal.mulf_def, v22_at, val_main_v25_apply, val_main_v27_apply,
    show idx_main_v25 (ix2 b k) = ix2 b (0 : Fin 1) from by idx_eq2, v23_at,
    show idx_main_v27 (ix2 b k) = ix2 (0 : Fin 1) k from by idx_eq2]

/-- Stage 34: the second tanh vector, over the maximum's inner product. -/
theorem v34_at (b : Fin 32) (k : Fin 64) :
    val_main_v34 (F := Ideal) x0 x2 x5 (ix2 b k)
      = Ideal.tanh (dot (colMax (chanMax (slab x0 b))) (col x2) * softmax (colMean (chanMean (slab x0 b))) k + row x5 k) := by
  rw [val_main_v34_apply, Ideal.hostUnary_tanh_def, val_main_v33_apply, Ideal.addf_def, val_main_v31_apply,
    Ideal.mulf_def, v22_at, val_main_v30_apply, val_main_v32_apply,
    show idx_main_v30 (ix2 b k) = ix2 b (0 : Fin 1) from by idx_eq2, v24_at,
    show idx_main_v32 (ix2 b k) = ix2 (0 : Fin 1) k from by idx_eq2]

/-- Stage 35: the inner product of the second tanh vector with the third weight column. -/
theorem v35_at (b : Fin 32) :
    val_main_v35 (F := Ideal) x0 x2 x3 x5 (ix2 b (0 : Fin 1))
      = dot (fun j => Ideal.tanh (dot (colMax (chanMax (slab x0 b))) (col x2) * softmax (colMean (chanMean (slab x0 b))) j + row x5 j))
          (col x3) := by
  rw [val_main_v35_apply]
  exact Finset.sum_congr rfl fun k _ => congrArg₂ (· * ·)
    ((congrArg (val_main_v34 (F := Ideal) x0 x2 x5) (by idx_eq2 : _ = ix2 b k)).trans (v34_at x0 x2 x5 b k))
    (congrArg x3 (by idx_eq2 : _ = ix2 k (0 : Fin 1)))

/-- Stage 39: the branch over the columns. -/
theorem v39_at (b : Fin 32) (k : Fin 64) :
    val_main_v39 (F := Ideal) x0 x1 x2 x3 x4 x5 x6 (ix2 b k)
      = branch (colMean (chanMean (slab x0 b))) (colMax (chanMax (slab x0 b))) (col x1) (col x2) (col x3) (row x4) (row x5) (row x6) k := by
  rw [val_main_v39_apply, Ideal.addf_def, val_main_v37_apply, Ideal.mulf_def, v29_at, val_main_v36_apply, val_main_v38_apply,
    show idx_main_v36 (ix2 b k) = ix2 b (0 : Fin 1) from by idx_eq2, v35_at,
    show idx_main_v38 (ix2 b k) = ix2 (0 : Fin 1) k from by idx_eq2]
  rfl

end Columns

/-! ## The branch over the rows

Here `mean = rowMean (chanMean X)` and `mx = rowMax (chanMax X)` are read off stages 11 and 8; the weights are the
arguments 7 … 12. The program repeats the stages of the columns' branch, twenty-eight stages later. -/

section Rows
variable (x7 x8 x9 : (⟨S64x1, .f32⟩ : BufTy).Contents (Elt Ideal)) (x10 x11 x12 : (⟨S1x64, .f32⟩ : BufTy).Contents (Elt Ideal))

/-- Stage 40: the maximum of the mean vector. -/
theorem v40_at (b : Fin 32) :
    val_main_v40 (F := Ideal) x0 (ix1 b) = maxOver (rowMean (chanMean (slab x0 b))) := by
  unfold val_main_v40
  refine (Host.reduce_eq_fold_single (FloatOps.maximumf (F := Ideal) (φ := .f32)) (val_main_v11 (F := Ideal) x0) _ _
    (by decide) _ (ix1 b)).trans ?_
  unfold maxOver
  refine congrArg (fun f => Finset.fold max negInf f Finset.univ) (funext fun k => ?_)
  rw [Function.comp_apply]
  exact (congrArg (val_main_v11 (F := Ideal) x0) (by idx_eq2 : _ = ix2 b k)).trans (v11_at x0 b k)

/-- Stage 42: the softmax's shift, the maximum of −∞ and the mean vector's maximum. -/
theorem v42_at (b : Fin 32) :
    val_main_v42 (F := Ideal) x0 (ix1 b) = shift (rowMean (chanMean (slab x0 b))) := by
  rw [val_main_v42_apply, Ideal.maximumf_def, v40_at, val_main_v41_apply, val_main_cst_12_apply]
  rfl

/-- Stage 44: the shift, broadcast along the vector. -/
theorem v44_at (b : Fin 32) (k : Fin 64) :
    val_main_v44 (F := Ideal) x0 (ix2 b k) = shift (rowMean (chanMean (slab x0 b))) := by
  rw [val_main_v44_apply, val_main_v43_apply]
  exact (congrArg (val_main_v42 (F := Ideal) x0) (by idx_eq1 : _ = ix1 b)).trans (v42_at x0 b)

/-- Stage 46: the exponential of a shifted entry. -/
theorem v46_at (b : Fin 32) (k : Fin 64) :
    val_main_v46 (F := Ideal) x0 (ix2 b k)
      = Ideal.exp (rowMean (chanMean (slab x0 b)) k - shift (rowMean (chanMean (slab x0 b)))) := by
  rw [val_main_v46_apply, Ideal.hostUnary_exp_def, val_main_v45_apply, Ideal.subf_def, v11_at, v44_at]

/-- Stage 47: the sum of those exponentials. -/
theorem v47_at (b : Fin 32) :
    val_main_v47 (F := Ideal) x0 (ix1 b)
      = ∑ j : Fin 64, Ideal.exp (rowMean (chanMean (slab x0 b)) j - shift (rowMean (chanMean (slab x0 b)))) := by
  rw [val_main_v47_apply, val_main_cst_13_apply, Ideal.ofBits_def, Ideal.ofBits_zero_f32, zero_add]
  exact Finset.sum_congr rfl fun j _ =>
    (congrArg (val_main_v46 (F := Ideal) x0) (by idx_eq2 : _ = ix2 b j)).trans (v46_at x0 b j)

/-- Stage 50: the softmax of the mean vector. -/
theorem v50_at (b : Fin 32) (k : Fin 64) :
    val_main_v50 (F := Ideal) x0 (ix2 b k) = softmax (rowMean (chanMean (slab x0 b))) k := by
  rw [val_main_v50_apply, Ideal.hostDivf_def, v46_at, val_main_v49_apply, val_main_v48_apply]
  unfold softmax
  exact congrArg (Ideal.div _) ((congrArg (val_main_v47 (F := Ideal) x0) (by idx_eq1 : _ = ix1 b)).trans (v47_at x0 b))

/-- Stage 51: the inner product of the mean vector with the first weight column. -/
theorem v51_at (b : Fin 32) :
    val_main_v51 (F := Ideal) x0 x7 (ix2 b (0 : Fin 1)) = dot (rowMean (chanMean (slab x0 b))) (col x7) := by
  rw [val_main_v51_apply]
  exact Finset.sum_congr rfl fun k _ => congrArg₂ (· * ·)
    ((congrArg (val_main_v11 (F := Ideal) x0) (by idx_eq2 : _ = ix2 b k)).trans (v11_at x0 b k))
    (congrArg x7 (by idx_eq2 : _ = ix2 k (0 : Fin 1)))

/-- Stage 52: the inner product of the maximum vector with the second weight column. -/
theorem v52_at (b : Fin 32) :
    val_main_v52 (F := Ideal) x0 x8 (ix2 b (0 : Fin 1)) = dot (rowMax (chanMax (slab x0 b))) (col x8) := by
  rw [val_main_v52_apply]
  exact Finset.sum_congr rfl fun k _ => congrArg₂ (· * ·)
    ((congrArg (val_main_v8 (F := Ideal) x0) (by idx_eq2 : _ = ix2 b k)).trans (v8_at x0 b k))
    (congrArg x8 (by idx_eq2 : _ = ix2 k (0 : Fin 1)))

/-- Stage 57: the first tanh vector, over the mean's inner product. -/
theorem v57_at (b : Fin 32) (k : Fin 64) :
    val_main_v57 (F := Ideal) x0 x7 x10 (ix2 b k)
      = Ideal.tanh (dot (rowMean (chanMean (slab x0 b))) (col x7) * softmax (rowMean (chanMean (slab x0 b))) k + row x10 k) := by
  rw [val_main_v57_apply, Ideal.hostUnary_tanh_def, val_main_v56_apply, Ideal.addf_def, val_main_v54_apply,
    Ideal.mulf_def, v50_at, val_main_v53_apply, val_main_v55_apply,
    show idx_main_v53 (ix2 b k) = ix2 b (0 : Fin 1) from by idx_eq2, v51_at,
    show idx_main_v55 (ix2 b k) = ix2 (0 : Fin 1) k from by idx_eq2]

/-- Stage 62: the second tanh vector, over the maximum's inner product. -/
theorem v62_at (b : Fin 32) (k : Fin 64) :
    val_main_v62 (F := Ideal) x0 x8 x11 (ix2 b k)
      = Ideal.tanh (dot (rowMax (chanMax (slab x0 b))) (col x8) * softmax (rowMean (chanMean (slab x0 b))) k + row x11 k) := by
  rw [val_main_v62_apply, Ideal.hostUnary_tanh_def, val_main_v61_apply, Ideal.addf_def, val_main_v59_apply,
    Ideal.mulf_def, v50_at, val_main_v58_apply, val_main_v60_apply,
    show idx_main_v58 (ix2 b k) = ix2 b (0 : Fin 1) from by idx_eq2, v52_at,
    show idx_main_v60 (ix2 b k) = ix2 (0 : Fin 1) k from by idx_eq2]

/-- Stage 63: the inner product of the second tanh vector with the third weight column. -/
theorem v63_at (b : Fin 32) :
    val_main_v63 (F := Ideal) x0 x8 x9 x11 (ix2 b (0 : Fin 1))
      = dot (fun j => Ideal.tanh (dot (rowMax (chanMax (slab x0 b))) (col x8) * softmax (rowMean (chanMean (slab x0 b))) j + row x11 j))
          (col x9) := by
  rw [val_main_v63_apply]
  exact Finset.sum_congr rfl fun k _ => congrArg₂ (· * ·)
    ((congrArg (val_main_v62 (F := Ideal) x0 x8 x11) (by idx_eq2 : _ = ix2 b k)).trans (v62_at x0 x8 x11 b k))
    (congrArg x9 (by idx_eq2 : _ = ix2 k (0 : Fin 1)))

/-- Stage 67: the branch over the rows. -/
theorem v67_at (b : Fin 32) (k : Fin 64) :
    val_main_v67 (F := Ideal) x0 x7 x8 x9 x10 x11 x12 (ix2 b k)
      = branch (rowMean (chanMean (slab x0 b))) (rowMax (chanMax (slab x0 b))) (col x7) (col x8) (col x9) (row x10) (row x11) (row x12) k := by
  rw [val_main_v67_apply, Ideal.addf_def, val_main_v65_apply, Ideal.mulf_def, v57_at, val_main_v64_apply, val_main_v66_apply,
    show idx_main_v64 (ix2 b k) = ix2 b (0 : Fin 1) from by idx_eq2, v63_at,
    show idx_main_v66 (ix2 b k) = ix2 (0 : Fin 1) k from by idx_eq2]
  rfl

end Rows

/-! ## The gate and the result -/

section Result
variable (x1 x2 x3 : (⟨S64x1, .f32⟩ : BufTy).Contents (Elt Ideal)) (x4 x5 x6 : (⟨S1x64, .f32⟩ : BufTy).Contents (Elt Ideal))
  (x7 x8 x9 : (⟨S64x1, .f32⟩ : BufTy).Contents (Elt Ideal)) (x10 x11 x12 : (⟨S1x64, .f32⟩ : BufTy).Contents (Elt Ideal))

/-- Stage 72: the rows' branch at h times the columns' branch at w. -/
theorem v72_at (b : Fin 32) (h w : Fin 64) :
    val_main_v72 (F := Ideal) x0 x1 x2 x3 x4 x5 x6 x7 x8 x9 x10 x11 x12 (ix3 b h w)
      = branch (rowMean (chanMean (slab x0 b))) (rowMax (chanMax (slab x0 b))) (col x7) (col x8) (col x9) (row x10) (row x11) (row x12) h
        * branch (colMean (chanMean (slab x0 b))) (colMax (chanMax (slab x0 b))) (col x1) (col x2) (col x3) (row x4) (row x5) (row x6) w := by
  rw [val_main_v72_apply, Ideal.mulf_def, val_main_v70_apply, val_main_v68_apply, val_main_v71_apply, val_main_v69_apply,
    show idx_main_v68 (idx_main_v70 (ix3 b h w)) = ix2 b h from by idx_eq2, v67_at,
    show idx_main_v69 (idx_main_v71 (ix3 b h w)) = ix2 b w from by idx_eq2, v39_at]

/-- Stage 76: the gate at pixel (h, w), kept on a unit channel axis. -/
theorem v76_at (b : Fin 32) (h w : Fin 64) :
    val_main_v76 (F := Ideal) x0 x1 x2 x3 x4 x5 x6 x7 x8 x9 x10 x11 x12 (ix4 b (0 : Fin 1) h w)
      = gate (slab x0 b) (col x1) (col x2) (col x3) (row x4) (row x5) (row x6) (col x7) (col x8) (col x9) (row x10) (row x11) (row x12) h w := by
  rw [val_main_v76_apply, Ideal.addf_def, val_main_v74_apply, val_main_v73_apply, Ideal.hostUnary_tanh_def,
    val_main_v75_apply, val_main_cst_14_apply,
    show idx_main_v74 (ix4 b (0 : Fin 1) h w) = ix3 b h w from by idx_eq3, v72_at]
  rfl

end Result

end Stages

end Ref

/-- The reference program's result is the specification: at (b, c, h, w) it is the input there times the gate of
    batch element b at pixel (h, w), the gate having been broadcast along the channels. -/
theorem ref_eq
    (x0 : (⟨Cert.ReferenceIdeal.S32x256x64x64, .f32⟩ : BufTy).Contents (Elt Ideal))
    (x1 x2 x3 : (⟨Cert.ReferenceIdeal.S64x1, .f32⟩ : BufTy).Contents (Elt Ideal))
    (x4 x5 x6 : (⟨Cert.ReferenceIdeal.S1x64, .f32⟩ : BufTy).Contents (Elt Ideal))
    (x7 x8 x9 : (⟨Cert.ReferenceIdeal.S64x1, .f32⟩ : BufTy).Contents (Elt Ideal))
    (x10 x11 x12 : (⟨Cert.ReferenceIdeal.S1x64, .f32⟩ : BufTy).Contents (Elt Ideal)) :
    Cert.ReferenceIdeal.Read.val_main_v78 (F := Ideal) x0 x1 x2 x3 x4 x5 x6 x7 x8 x9 x10 x11 x12
      = Cert.SpatialGate.outArr x0 x1 x2 x3 x4 x5 x6 x7 x8 x9 x10 x11 x12 := by
  funext i
  obtain ⟨b, c, h, w, rfl⟩ : ∃ (b : Fin 32) (c : Fin 256) (h w : Fin 64), i = ix4 b c h w := ⟨i 0, i 1, i 2, i 3, eq_ix4 i⟩
  rw [val_main_v78_apply, Ideal.mulf_def, val_main_v77_apply,
    show idx_main_v77 (ix4 b c h w) = ix4 b (0 : Fin 1) h w from by idx_eq4, Ref.v76_at]
  rfl

end Cert.SpatialGate

end
-- ==== Proof.lean ====
/-
  The kernel computes, for each of 32 batch elements, a gate on the 64 × 64 pixels from channel-wise and then row-wise
  and column-wise maxima and means of the input, two small branches of inner products, softmax and tanh over vectors
  of length 64, and multiplies every channel of the input by `tanh (rows' branch ⊗ columns' branch) + 1`; the reference
  states the same computation in whole-array operations. They are one function on the extended reals
  (`Cert.SpatialGate.outArr`, Proof/Spec.lean):

  * the kernel walks the 256 channels in four chunks of 64 with a running maximum and a running sum, and multiplies the
    sum by 2⁻⁸ where the reference divides by 256 — maxima and sums regroup freely, and the two float words denote
    1/256 and 256 exactly (Proof/Regroup.lean); every other step is the same operation on both sides, the inner
    products as sums of pointwise products, so nothing about the inputs' finiteness is used;
  * what one grid point's body stores is read off its payloads (Proof/BodyFold.lean, BodyBranch.lean, BodyGate.lean: the
    block law); the blocks tile the flattened output, and the reshapes around the call only flatten and unflatten
    the pixels (Proof/KernelRun.lean);
  * the reference's result is read one operation at a time (Proof/RefValue.lean).

  The three frames are the generated ones, and the idealization rewrote nothing, so `preserves` is trivial.
-/
import proofs.«117305_j1580547973359_2_alg».proof.Defs
import proofs.«117305_j1580547973359_2_alg».proof.Proof.Gen.Kernel
import proofs.«117305_j1580547973359_2_alg».proof.Proof.Gen.Kernel.Skeleton
import proofs.«117305_j1580547973359_2_alg».proof.Proof.Gen.Kernel.Launch
import proofs.«117305_j1580547973359_2_alg».proof.Proof.Gen.Kernel.Points
import proofs.«117305_j1580547973359_2_alg».proof.Proof.Gen.Kernel.Frame
import proofs.«117305_j1580547973359_2_alg».proof.Proof.Gen.KernelIdeal
import proofs.«117305_j1580547973359_2_alg».proof.Proof.Gen.KernelIdeal.Skeleton
import proofs.«117305_j1580547973359_2_alg».proof.Proof.Gen.KernelIdeal.Launch
import proofs.«117305_j1580547973359_2_alg».proof.Proof.Gen.KernelIdeal.Points
import proofs.«117305_j1580547973359_2_alg».proof.Proof.Gen.KernelIdeal.Frame
import proofs.«117305_j1580547973359_2_alg».proof.Proof.Gen.ReferenceIdeal
import proofs.«117305_j1580547973359_2_alg».proof.Proof.Gen.ReferenceIdeal.Run
import proofs.«117305_j1580547973359_2_alg».proof.Proof.Gen.ReferenceIdeal.Read
import proofs.«117305_j1580547973359_2_alg».proof.Proof.Gen.Pre_finite_inputs
import proofs.«117305_j1580547973359_2_alg».proof.Proof.BodyGate
import proofs.«117305_j1580547973359_2_alg».proof.Proof.KernelRun
import proofs.«117305_j1580547973359_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end at `outArr` of their arguments, and the arguments agree. -/
theorem algebraic : Cert.algebraic_KernelIdeal_ReferenceIdeal := by
  intro m ρ m' ρ' _ hagree
  refine ⟨fun c => Cert.SpatialGate.outArr (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)),
    Cert.SpatialGate.kernel_run Cert.SpatialGate.blockLaw m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v78_eq, Cert.SpatialGate.ref_eq]
  obtain ⟨h0, h1, h2, h3, h4, h5, h6, h7, h8, h9, h10, h11, h12⟩ := hagree c
  rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
